-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x64 : Shape := ⟨2, ![256, 64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S8192x256 .f32) (main_arg1 : FVec F S256x64 .f32) (main_arg2 : FVec F S256x64 .f32) (main_arg3 : FVec F S256x64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S8192x256 : Shape := ⟨2, ![8192, 256]⟩
abbrev S256x64 : Shape := ⟨2, ![256, 64]⟩
abbrev S_ : Shape := ⟨0, ![]⟩
abbrev S256x192 : Shape := ⟨2, ![256, 192]⟩
abbrev S8192x192 : Shape := ⟨2, ![8192, 192]⟩
abbrev S1024x256 : Shape := ⟨2, ![1024, 256]⟩
abbrev S1024x192 : Shape := ⟨2, ![1024, 192]⟩
abbrev S8192x64 : Shape := ⟨2, ![8192, 64]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 13
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S_, .f32⟩
  | .hbm, ⟨5, _⟩ => ⟨S256x64, .f32⟩
  | .hbm, ⟨6, _⟩ => ⟨S256x64, .f32⟩
  | .hbm, ⟨7, _⟩ => ⟨S256x192, .f32⟩
  | .hbm, ⟨8, _⟩ => ⟨S8192x192, .bf16⟩
  | .hbm, ⟨9, _⟩ => ⟨S8192x64, .bf16⟩
  | .hbm, ⟨10, _⟩ => ⟨S8192x64, .bf16⟩
  | .hbm, ⟨11, _⟩ => ⟨S8192x64, .bf16⟩
  | .hbm, ⟨12, _⟩ => ⟨S8192x64, .f32⟩
  | .local _ .vmem, ⟨0, _⟩ => ⟨S1024x256, .f32⟩
  | .local _ .vmem, ⟨1, _⟩ => ⟨S1024x256, .f32⟩
  | .local _ .vmem, ⟨2, _⟩ => ⟨S256x192, .f32⟩
  | .local _ .vmem, ⟨3, _⟩ => ⟨S1024x192, .bf16⟩
  | .local _ .vmem, ⟨4, _⟩ => ⟨S1024x192, .bf16⟩
  | .local _ .vmem, ⟨5, _⟩ => ⟨S1024x64, .bf16⟩
  | .local _ .vmem, ⟨6, _⟩ => ⟨S1024x64, .bf16⟩
  | .local _ .vmem, ⟨7, _⟩ => ⟨S1024x64, .bf16⟩
  | .local _ .vmem, ⟨8, _⟩ => ⟨S1024x64, .bf16⟩
  | .local _ .vmem, ⟨9, _⟩ => ⟨S1024x64, .bf16⟩
  | .local _ .vmem, ⟨10, _⟩ => ⟨S1024x64, .bf16⟩
  | .local _ .vmem, ⟨11, _⟩ => ⟨S1024x64, .f32⟩
  | .local _ .vmem, ⟨12, _⟩ => ⟨S1024x64, .f32⟩
  | .local _ .vmem, ⟨13, _⟩ => ⟨S1024x1, .f32⟩
  | .local _ .vmem, ⟨14, _⟩ => ⟨S1024x1, .f32⟩
  | .local _ .vmem, ⟨15, _⟩ => ⟨S1024x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_23 : BitVec 32 := 0#32
  let v43 : BitVec 1 := Scalar.cmpi .ne v42 c0_i32_23
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S256x64 : S_.BroadcastsInDim S256x64 (![] : Fin 0 → Fin S256x64.rank)
  concatenates_S256x64_S256x64_S256x64_S256x192_d1 : Shape.Concatenates [S256x64, S256x64, S256x64] S256x192 1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S1024x192_S1024x192_0_0 : ∀ a, (![0, 0] : Fin 2 → Nat) a + S1024x192.size a ≤ S1024x192.size a
  h_S1024x192 : 0 < S1024x192.numel
  packedbf16_S1024x192_S1024x192_0_0 : (Rect.unit (s := S1024x192) ![0, 0] S1024x192.size inb_S1024x192_S1024x192_0_0).PackedRows (EltTy.packing .bf16)
  slices_S8192x192_S8192x64_0_0 : S8192x192.Slices ![0, 0] S8192x64
  slices_S8192x192_S8192x64_0_64 : S8192x192.Slices ![0, 64] S8192x64
  slices_S8192x192_S8192x64_0_128 : S8192x192.Slices ![0, 128] S8192x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  dot_S1024x256_S256x192_S1024x192_1_0_0_1_n_n_wf : DotDims.WF S1024x256 S256x192 S1024x192 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x192.size a ≤ S256x192.size a
  hwx0_1 : ∀ i : grid0.Coords, EltTy.bits .f32 = 32 ∨ (Rect.block (s := S256x192) S256x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x192.size a ≤ S8192x192.size a
  hwx0_2 : ∀ i : grid0.Coords, EltTy.bits .bf16 = 32 ∨ (Rect.block (s := S8192x192) S1024x192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .bf16 = 32 ∨ (Rect.block (s := S8192x64) S1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .bf16 = 32 ∨ (Rect.block (s := S8192x64) S1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .bf16 = 32 ∨ (Rect.block (s := S8192x64) S1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)

variable [Facts₀]

def dot_S1024x256_S256x192_S1024x192_1_0_0_1_n_n : DotDims S1024x256 S256x192 S1024x192 where
  lhsContracting := [1]
  rhsContracting := [0]
  lhsNonContracting := [0]
  rhsNonContracting := [1]
  lhsBatch := []
  rhsBatch := []
  wf := dot_S1024x256_S256x192_S1024x192_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S256x64 : Shape := ⟨2, ![256, 64]⟩
abbrev S8192x64 : Shape := ⟨2, ![8192, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S64x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x64_S8192x64_1_0_0_1_n_n_wf : DotDims.WF S8192x256 S256x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.K.Step.lean ====
/-
  The attention kernel's body as pure functions of what it loads.

  At every grid point `(qi, ki)` the body reads a block of 1024 query rows, a block of 1024 key rows and a block of 1024
  value rows, and three buffers it keeps between points — the running row maxima `m` (1024×1), the running denominators `l`
  (1024×1) and the running numerators `acc` (1024×64) — and leaves new contents in the three: `stepS`. At the first
  key block of a query block the three are first reset (`initS`: `-∞`, `0`, `0`); at the last the quotient `acc / l` is
  what goes to the output block (`outS`). The projection kernel's body is one matrix product (`projS`).
-/
import proofs.«176530_j48687749268144_2_alg».proof.Proof.Gen.Kernel.Skeleton

noncomputable section

namespace Cert.Kernel.Hand

open Idealize.ShloMosaic Cert.Kernel Cert.Kernel.Gen

variable {F : FTy → Type} [FloatOps F]

/-- The three buffers carried between grid points: row maxima, denominators, numerators. -/
abbrev Scr (F : FTy → Type) [FloatOps F] : Type := Vec F S1024x1 .f32 × Vec F S1024x1 .f32 × Vec F S1024x64 .f32

/-- The carried buffers after the reset at a query block's first key block. -/
def initS : Scr F := (k1_pay4, k1_pay5, k1_pay6)

/-- The carried buffers after one grid point's body, from the query, key and value blocks and the carried buffers before. -/
def stepS (xq xk xv : Vec F S1024x64 .bf16) (s : Scr F) : Scr F :=
  (k1_pay2 (k1_pay8 xq xk s.1),
   k1_pay11 xq xk s.1 s.1 s.2.1,
   k1_pay1 (k1_pay12 xq xk s.1 s.1 s.2.2) (k1_pay13 xq xk xv s.1))

/-- The output block at a query block's last key block: numerators over denominators. -/
def outS (s : Scr F) : Vec F S1024x64 .f32 := k1_pay3 s.2.2 s.2.1

/-- The projection kernel's output block: rows of `x` times the fused weights. -/
def projS (x0 : Vec F S1024x256 .f32) (w : Vec F S256x192 .f32) : Vec F S1024x192 .bf16 := k0_pay1 x0 w

end Cert.Kernel.Hand

end
-- ==== Proof.K.Region0.lean ====
/-
  The projection kernel's region, entered with the TensorCore's buffers at any contents `V`.

  The grid has 8 points; point `t` stages rows `1024 t … 1024 t + 1023` of `x` (window 0), the whole fused weight matrix
  (window 1, fetched once) and writes back rows `1024 t …` of the projected array (window 2). The body loads the two input
  blocks, multiplies them and stores the product over the whole output block, so after the body the output's staging
  buffer holds `projS` of the two input blocks; nothing is kept between points.
-/
import proofs.«176530_j48687749268144_2_alg».proof.Proof.K.Step
import proofs.«176530_j48687749268144_2_alg».proof.Proof.Gen.Kernel.Launch
import proofs.«176530_j48687749268144_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S1024x256 := Rect.unit (s := S1024x256) ![0, 0] S1024x256.size inb_S1024x256_S1024x256_0_0
abbrev r0_1 : Rect S256x192 := Rect.unit (s := S256x192) ![0, 0] S256x192.size inb_S256x192_S256x192_0_0
abbrev r0_2 : Rect S1024x192 := Rect.unit (s := S1024x192) ![0, 0] S1024x192.size inb_S1024x192_S1024x192_0_0

/-- The output window's staging buffer after the body: its one store, over the whole block. -/
def out0_2 (x0 : Vec F S1024x256 .f32) (x1 : Vec F S256x192 .f32) : Vec F S1024x192 .bf16 :=
  View.canon [⟨r0_2, k0_pay1 (View.ld x0 r0_0) (View.ld x1 r0_1)⟩]

/-- The store covers the block. -/
theorem cover0_2 (p0 : Vec F S1024x192 .bf16) (y : S1024x192.Idx) :
    ∃ pc ∈ ([⟨r0_2, p0⟩] : List (View.Piece (Elt F) S1024x192 .bf16)), y ∈ pc.1.set :=
  View.cover_of_tiled [⟨r0_2, p0⟩] S1024x192.size (by rfl) y

set_option maxHeartbeats 1000000 in
/-- The body on whole staging memrefs: the inputs come back as they were, the output holds `out0_2` of the inputs. -/
theorem sound_kernel0 (c : Dev nD) (E : Set ℕ) (i : grid0.Coords) (arg1 : Memref sig .tc .vmem S1024x256 .f32) (harg1 : arg1.IsWhole) (arg2 : Memref sig .tc .vmem S256x192 .f32) (harg2 : arg2.IsWhole) (arg3 : Memref sig .tc .vmem S1024x192 .bf16) (harg3 : arg3.IsWhole)
    (x0 : Vec F S1024x256 .f32) (x1 : Vec F S256x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data: the arrays as found; after the body each input's buffer at its block, the output's at
    `out0_2` of the input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Defs.lean ====
/-
  The attention kernel's region: what its runs share.

  The grid is 8 × 8, point `t = 8 qi + ki`: query block `qi` (window 0, fetched when `ki = 0`), key block `ki` and value block `ki`
  (windows 1, 2, fetched at every point), output block `qi` (window 3, written back when `ki = 7`, untouched elsewhere). The
  body resets its three carried buffers when `ki = 0` and stores the output block when `ki = 7`; both conditions are decided
  over the grid in closed form.
-/
import proofs.«176530_j48687749268144_2_alg».proof.Proof.K.Step
import proofs.«176530_j48687749268144_2_alg».proof.Proof.Gen.Kernel.Launch
import proofs.«176530_j48687749268144_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two-by-zero offset, however spelt, is zero. -/
theorem hz2 : (![0, 0] : Fin 2 → Nat) = fun _ => 0 := by funext a; fin_cases a <;> rfl

/-- A store over a whole 1024×1 buffer covers it; likewise 1024×64. -/
theorem cover_col (L : List (View.Piece (Elt F) S1024x1 .f32)) (p : Vec F S1024x1 .f32) (y : S1024x1.Idx) :
    ∃ pc ∈ ((⟨Rect.unit (s := S1024x1) ![0, 0] S1024x1.size inb_S1024x1_S1024x1_0_0, p⟩ : View.Piece (Elt F) S1024x1 .f32) :: L), y ∈ pc.1.set :=
  ⟨_, List.mem_cons_self, by
    obtain ⟨pc, hpc, hy⟩ := View.cover_of_tiled [(⟨Rect.unit (s := S1024x1) ![0, 0] S1024x1.size inb_S1024x1_S1024x1_0_0, p⟩ : View.Piece (Elt F) S1024x1 .f32)] S1024x1.size (by rfl) y
    rw [List.mem_singleton] at hpc; subst hpc; exact hy⟩
theorem cover_blk (L : List (View.Piece (Elt F) S1024x64 .f32)) (p : Vec F S1024x64 .f32) (y : S1024x64.Idx) :
    ∃ pc ∈ ((⟨Rect.unit (s := S1024x64) ![0, 0] S1024x64.size inb_S1024x64_S1024x64_0_0, p⟩ : View.Piece (Elt F) S1024x64 .f32) :: L), y ∈ pc.1.set :=
  ⟨_, List.mem_cons_self, by
    obtain ⟨pc, hpc, hy⟩ := View.cover_of_tiled [(⟨Rect.unit (s := S1024x64) ![0, 0] S1024x64.size inb_S1024x64_S1024x64_0_0, p⟩ : View.Piece (Elt F) S1024x64 .f32)] S1024x64.size (by rfl) y
    rw [List.mem_singleton] at hpc; subst hpc; exact hy⟩

/-! ## The body's branch conditions -/

/-- "This is the first key block": the reset's condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last key block": the output store's condition. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key block the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The carried buffers as memrefs -/

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

/-- The other kernel's staging buffers, which ride along untouched, each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the region is handed beside its windows: the other kernel's staging buffers, the three carried buffers at
    anything, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.Region1RunA.lean ====
/-
  The attention kernel's body at the first key block of a query block: the carried buffers are reset, then stepped.
-/
import proofs.«176530_j48687749268144_2_alg».proof.Proof.K.Region1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs and whole carried buffers at anything: the inputs and the (idle) output block come back
    as they were, the carried buffers hold `stepS` of the input blocks and the reset contents. -/
theorem sound_kernel1_A (c : Dev nD) (E : Set ℕ) (i : grid1.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : ¬cond1_1 i)
    (xq xk xv : Vec F S1024x64 .bf16) (xo : Vec F S1024x64 .f32) (K : PUnit → sProp 𝕄) :
    iprop(owns (c : Thread nD τ) arg2 fullShare xq ∗ owns (c : Thread nD τ) arg3 fullShare xk ∗ owns (c : Thread nD τ) arg4 fullShare xv ∗ owns (c : Thread nD τ) arg5 fullShare xo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare xq ∗ owns (c : Thread nD τ) arg3 fullShare xk ∗ owns (c : Thread nD τ) arg4 fullShare xv ∗ owns (c : Thread nD τ) arg5 fullShare xo
            ∗ owns (c : Thread nD τ) arg6 fullShare (stepS xq xk xv initS).1 ∗ owns (c : Thread nD τ) arg7 fullShare (stepS xq xk xv initS).2.1 ∗ owns (c : Thread nD τ) arg8 fullShare (stepS xq xk xv initS).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    try sl_unfold_run_names
    rw [View.read_writes_eq_canon _ _ _ (cover_col _ _), View.canon_cons_unit_zero hz2]
    unfold stepS initS; dsimp only
    try sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]
  isplitl [H7]
  · iexists _; isplitr
    swap; · iexact H7
    ipureintro
    try sl_unfold_run_names
    rw [View.read_writes_eq_canon _ _ _ (cover_col _ _), View.canon_cons_unit_zero hz2]
    unfold stepS initS; dsimp only
    try sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]
  iexists _; isplitr
  swap; · iexact H8
  ipureintro
  try sl_unfold_run_names
  rw [View.read_writes_eq_canon _ _ _ (cover_blk _ _), View.canon_cons_unit_zero hz2]
  unfold stepS initS; dsimp only
  try sl_unfold_run_names
  simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]

end Cert.Kernel.Hand

end
-- ==== Proof.K.Region1RunB.lean ====
/-
  The attention kernel's body at a grid point that is neither the first nor the last key block of its query block.
-/
import proofs.«176530_j48687749268144_2_alg».proof.Proof.K.Region1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs and whole carried buffers at contents `s`: the inputs and the (idle) output block come back
    as they were, the carried buffers hold `stepS` of the input blocks and `s`. -/
theorem sound_kernel1_B (c : Dev nD) (E : Set ℕ) (i : grid1.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i)
    (xq xk xv : Vec F S1024x64 .bf16) (xo : Vec F S1024x64 .f32) (s : Scr F) (K : PUnit → sProp 𝕄) :
    iprop(owns (c : Thread nD τ) arg2 fullShare xq ∗ owns (c : Thread nD τ) arg3 fullShare xk ∗ owns (c : Thread nD τ) arg4 fullShare xv ∗ owns (c : Thread nD τ) arg5 fullShare xo
        ∗ owns (c : Thread nD τ) arg6 fullShare s.1 ∗ owns (c : Thread nD τ) arg7 fullShare s.2.1 ∗ owns (c : Thread nD τ) arg8 fullShare s.2.2
        ∗ (iprop(owns (c : Thread nD τ) arg2 fullShare xq ∗ owns (c : Thread nD τ) arg3 fullShare xk ∗ owns (c : Thread nD τ) arg4 fullShare xv ∗ owns (c : Thread nD τ) arg5 fullShare xo
            ∗ owns (c : Thread nD τ) arg6 fullShare (stepS xq xk xv s).1 ∗ owns (c : Thread nD τ) arg7 fullShare (stepS xq xk xv s).2.1 ∗ owns (c : Thread nD τ) arg8 fullShare (stepS xq xk xv s).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (cover_col _ _), View.canon_cons_unit_zero hz2]
    unfold stepS; dsimp only
    sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2]
  isplitl [H7]
  · iexists _; isplitr
    swap; · iexact H7
    ipureintro
    rw [View.read_writes_eq_canon _ _ _ (cover_col _ _), View.canon_cons_unit_zero hz2]
    unfold stepS; dsimp only
    simp only [View.readAt_eq_ld, harg2.read_unread, harg3.read_unread, harg4.read_unread, harg6.read_unread, harg7.read_unread, harg8.read_unread, View.ld_unit_zero (S := S1024x64) hz2, View.ld_unit_zero (S := S1024x1) hz2]
  iexists _; isplitr
  swap; · iexact H8
  ipureintro
  rw [View.read_writes_eq_canon _ _ _ (cover_blk _ _), View.canon_cons_unit_zero hz2]
  unfold stepS; dsimp only
  sl_unfold_run_names
  simp only [View.readAt_eq_ld, harg2.read_unread, harg3.read_unread, harg4.read_unread, harg6.read_unread, harg7.read_unread, harg8.read_unread, View.ld_unit_zero (S := S1024x64) hz2, View.ld_unit_zero (S := S1024x1) hz2]

end Cert.Kernel.Hand

end
-- ==== Proof.K.Region1RunC.lean ====
/-
  The attention kernel's body at the last key block of a query block: the carried buffers are stepped, then the quotient
  of numerators by denominators is stored over the output block.
-/
import proofs.«176530_j48687749268144_2_alg».proof.Proof.K.Region1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the output's at anything, and whole carried buffers at contents `s`: the inputs come back
    as they were, the carried buffers hold `stepS` of the input blocks and `s`, the output block `outS` of that. -/
theorem sound_kernel1_C (c : Dev nD) (E : Set ℕ) (i : grid1.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (xq xk xv : Vec F S1024x64 .bf16) (s : Scr F) (K : PUnit → sProp 𝕄) :
    iprop(owns (c : Thread nD τ) arg2 fullShare xq ∗ owns (c : Thread nD τ) arg3 fullShare xk ∗ owns (c : Thread nD τ) arg4 fullShare xv ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare xq ∗ owns (c : Thread nD τ) arg3 fullShare xk ∗ owns (c : Thread nD τ) arg4 fullShare xv ∗ owns (c : Thread nD τ) arg5 fullShare (outS (stepS xq xk xv s))
            ∗ owns (c : Thread nD τ) arg6 fullShare (stepS xq xk xv s).1 ∗ owns (c : Thread nD τ) arg7 fullShare (stepS xq xk xv s).2.1 ∗ owns (c : Thread nD τ) arg8 fullShare (stepS xq xk xv s).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    try sl_unfold_run_names
    rw [View.read_writes_eq_canon _ _ _ (cover_blk _ _), View.canon_cons_unit_zero hz2]
    unfold outS stepS; dsimp only
    try sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]
  isplitl [H6]
  · iexists _; isplitr
    swap; · iexact H6
    ipureintro
    try sl_unfold_run_names
    rw [View.read_writes_eq_canon _ _ _ (cover_col _ _), View.canon_cons_unit_zero hz2]
    unfold stepS; dsimp only
    try sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]
  isplitl [H7]
  · iexists _; isplitr
    swap; · iexact H7
    ipureintro
    try sl_unfold_run_names
    rw [View.read_writes_eq_canon _ _ _ (cover_col _ _), View.canon_cons_unit_zero hz2]
    unfold stepS; dsimp only
    try sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]
  iexists _; isplitr
  swap; · iexact H8
  ipureintro
  try sl_unfold_run_names
  rw [View.read_writes_eq_canon _ _ _ (cover_blk _ _), View.canon_cons_unit_zero hz2]
  unfold stepS; dsimp only
  try sl_unfold_run_names
  simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]

end Cert.Kernel.Hand

end
-- ==== Proof.K.Region1.lean ====
/-
  The attention kernel's region, entered with the TensorCore's buffers at any contents `V`: what the three carried
  buffers hold after every grid point, the proof data, and the body obligation.

  After point `t = 8 qi + ki` the carried buffers hold `scrAt t`: `stepS` of the point's query, key and value blocks applied
  to the reset contents when `ki = 0` and to `scrAt (t − 1)` otherwise. The output block written back at `ki = 7` is `outS (scrAt t)`.
-/
import proofs.«176530_j48687749268144_2_alg».proof.Proof.K.Region1RunA
import proofs.«176530_j48687749268144_2_alg».proof.Proof.K.Region1RunB
import proofs.«176530_j48687749268144_2_alg».proof.Proof.K.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and its wholeness. -/
abbrev ms1_0 (t : Fin cfg1.N) : Memref sig .tc .vmem S1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)

/-! ## What the carried buffers hold after each point -/

/-- The carried buffers after the body at position `n`. -/
def scrAt (c : Dev nD) : (n : ℕ) → n < cfg1.N → Scr F
  | 0, hn => (stepS (iblk1 V c 0 ⟨0, hn⟩) (iblk1 V c 1 ⟨0, hn⟩) (iblk1 V c 2 ⟨0, hn⟩) initS)
  | n + 1, hn =>
    if (n + 1) % 8 = 0 then (stepS (iblk1 V c 0 ⟨n + 1, hn⟩) (iblk1 V c 1 ⟨n + 1, hn⟩) (iblk1 V c 2 ⟨n + 1, hn⟩) initS)
    else (stepS (iblk1 V c 0 ⟨n + 1, hn⟩) (iblk1 V c 1 ⟨n + 1, hn⟩) (iblk1 V c 2 ⟨n + 1, hn⟩) (scrAt c n (Nat.lt_of_succ_lt hn)))

/-- At a first key block: the step from the reset contents. -/
theorem scrAt_first (c : Dev nD) (t : Fin cfg1.N) (h0 : t.val % 8 = 0) :
    scrAt V c t.val t.isLt = (stepS (iblk1 V c 0 t) (iblk1 V c 1 t) (iblk1 V c 2 t) initS) := by
  obtain ⟨n, hn⟩ := t
  cases n with
  | zero => rfl
  | succ n => exact (if_pos h0).trans rfl

/-- At a later key block: the step from what the point before left. -/
theorem scrAt_later (c : Dev nD) (t : Fin cfg1.N) (h0 : ¬t.val % 8 = 0) :
    scrAt V c t.val t.isLt = (stepS (iblk1 V c 0 t) (iblk1 V c 1 t) (iblk1 V c 2 t) (scrAt V c (t.val - 1) (Nat.lt_of_le_of_lt (Nat.sub_le _ _) t.isLt))) := by
  obtain ⟨n, hn⟩ := t
  cases n with
  | zero => exact absurd (Nat.zero_mod _) h0
  | succ n => exact (if_neg h0).trans rfl

/-- The region's invariant before position `n`: before the first point what the launch hands over; afterwards the
    other kernel's staging buffers at anything, the carried buffers at `scrAt (n − 1)`, the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare ((scrAt V c n hn).1) ∗ owns (c : Thread nD τ) scM1_1 fullShare ((scrAt V c n hn).2.1) ∗ owns (c : Thread nD τ) scM1_2 fullShare ((scrAt V c n hn).2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare ((scrAt V c n hn).1) ∗ owns (c : Thread nD τ) scM1_1 fullShare ((scrAt V c n hn).2.1) ∗ owns (c : Thread nD τ) scM1_2 fullShare ((scrAt V c n hn).2.2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare ((scrAt V c (n - 1) (by omega)).1) ∗ owns (c : Thread nD τ) scM1_1 fullShare ((scrAt V c (n - 1) (by omega)).2.1) ∗ owns (c : Thread nD τ) scM1_2 fullShare ((scrAt V c (n - 1) (by omega)).2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outS (scrAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outS (scrAt V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t) := by
  refine ⟨?_, ?_, ?_⟩
  · unfold Dat.leavesExact; rw [liveAt1_0 t, after1_0]
  · unfold Dat.leavesExact; rw [liveAt1_1 t, after1_1]
  · unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [(leaves_in V c t).1, (leaves_in V c t).2.1, (leaves_in V c t).2.2]
  have hN : t.val < 64 := lt_of_lt_of_eq t.isLt (show cfg1.N = 64 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [scrAt_first V c t h0]
    by_cases hz : t.val = 0
    · rw [PhiS_castSucc V c t, PhiS_zero V c _ _ hz, PhiA1_eq]
      iintro ⟨⟨⟨HA, HB, HC, HD, HE, HS0, HS1, HS2⟩, Hg⟩, Ho, ⟨%d0, H0⟩, ⟨%d1, H1⟩, ⟨%d2, H2⟩, ⟨%d3, H3⟩⟩
      iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HA HB HC HD HE HS0 HS1 HS2 Hg]
      · isplitr [Hg]
        · isplitl [HA]; · iexact HA
          isplitl [HB]; · iexact HB
          isplitl [HC]; · iexact HC
          isplitl [HD]; · iexact HD
          isplitl [HE]; · iexact HE
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA, HB, HC, HD, HE, HS0, HS1, HS2⟩, Hg⟩, Ho, ⟨%d0, H0⟩, ⟨%d1, H1⟩, ⟨%d2, H2⟩, ⟨%d3, H3⟩⟩
      iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HA HB HC HD HE HS0 HS1 HS2 Hg]
      · isplitr [Hg]
        · isplitl [HA]; · iexact HA
          isplitl [HB]; · iexact HB
          isplitl [HC]; · iexact HC
          isplitl [HD]; · iexact HD
          isplitl [HE]; · iexact HE
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [scrAt_later V c t h0, PhiS_castSucc V c t, PhiS_pos V c _ _ hz]
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3, scrAt_later V c t h0]
      iintro ⟨⟨⟨HA, HB, HC, HD, HE, HS0, HS1, HS2⟩, Hg⟩, Ho, ⟨%d0, H0⟩, ⟨%d1, H1⟩, ⟨%d2, H2⟩, ⟨%d3, H3⟩⟩
      iapply (sound_kernel1_C c Set.univ (grid1.coords t) _ _ _ _ _ _ _ _ _ _ _ _ _ _ (fun h => h0 ((hcond1_0 t).mp h)) ((hcond1_1 t).mpr h1) (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HA HB HC HD HE HS0 HS1 HS2 Hg]
      · isplitr [Hg]
        · isplitl [HA]; · iexact HA
          isplitl [HB]; · iexact HB
          isplitl [HC]; · iexact HC
          isplitl [HD]; · iexact HD
          isplitl [HE]; · iexact HE
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨HA, HB, HC, HD, HE, HS0, HS1, HS2⟩, Hg⟩, Ho, ⟨%d0, H0⟩, ⟨%d1, H1⟩, ⟨%d2, H2⟩, ⟨%d3, H3⟩⟩
      iapply (sound_kernel1_B c Set.univ (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HA HB HC HD HE HS0 HS1 HS2 Hg]
      · isplitr [Hg]
        · isplitl [HA]; · iexact HA
          isplitl [HB]; · iexact HB
          isplitl [HC]; · iexact HC
          isplitl [HD]; · iexact HD
          isplitl [HE]; · iexact HE
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the launch handed over: the carried buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HA, HB, HC, HD, HE, HS0, HS1, HS2⟩, Hg⟩
  isplitr [Hg]
  · isplitl [HA]; · iexact HA
    isplitl [HB]; · iexact HB
    isplitl [HC]; · iexact HC
    isplitl [HD]; · iexact HD
    isplitl [HE]; · iexact HE
    isplitl [HS0]; · iexists _; iexact HS0
    isplitl [HS1]; · iexists _; iexact HS1
    iexists _; iexact HS2
  iexact Hg

end Cert.Kernel.Hand

end
-- ==== Proof.K.Run.lean ====
/-
  The whole program's run: the host operations that scale the query weights and fuse the three weight matrices, the
  projection region, the three column slices of its result, the attention region.

  The TensorCore's buffer contents are followed through the four segments (`W0` … `W4`): a stretch of host operations
  leaves its operations' results, a region leaves its windows' arrays at what its write-backs leave and every other
  buffer as it was. Every weakly fair execution terminates with every unscoped buffer at `W4`; the argument arrays read
  back through the fold are the launch contents.
-/
import proofs.«176530_j48687749268144_2_alg».proof.Proof.K.Region0
import proofs.«176530_j48687749268144_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with its arrays
    at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with its arrays
    at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and the
    final state has every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result named: the attention region's output array after its last write-back. -/
theorem run_value : θ_run defs (onTc (τ := τ) (main (F := F))) ⟨m, fun _ => 0, ρ⟩ (fun r => ∀ c : Dev nD,
      r.2.mem ((c.tc : Thread nD τ).loc main_v7) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_v7 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.KI.Step.lean ====
/-
  The attention kernel's body as pure functions of what it loads.

  At every grid point `(qi, ki)` the body reads a block of 1024 query rows, a block of 1024 key rows and a block of 1024
  value rows, and three buffers it keeps between points — the running row maxima `m` (1024×1), the running denominators `l`
  (1024×1) and the running numerators `acc` (1024×64) — and leaves new contents in the three: `stepS`. At the first
  key block of a query block the three are first reset (`initS`: `-∞`, `0`, `0`); at the last the quotient `acc / l` is
  what goes to the output block (`outS`). The projection kernel's body is one matrix product (`projS`).
-/
import proofs.«176530_j48687749268144_2_alg».proof.Proof.Gen.KernelIdeal.Skeleton

noncomputable section

namespace Cert.KernelIdeal.Hand

open Idealize.ShloMosaic Cert.KernelIdeal Cert.KernelIdeal.Gen

variable {F : FTy → Type} [FloatOps F]

/-- The three buffers carried between grid points: row maxima, denominators, numerators. -/
abbrev Scr (F : FTy → Type) [FloatOps F] : Type := Vec F S1024x1 .f32 × Vec F S1024x1 .f32 × Vec F S1024x64 .f32

/-- The carried buffers after the reset at a query block's first key block. -/
def initS : Scr F := (k1_pay4, k1_pay5, k1_pay6)

/-- The carried buffers after one grid point's body, from the query, key and value blocks and the carried buffers before. -/
def stepS (xq xk xv : Vec F S1024x64 .bf16) (s : Scr F) : Scr F :=
  (k1_pay2 (k1_pay8 xq xk s.1),
   k1_pay11 xq xk s.1 s.1 s.2.1,
   k1_pay1 (k1_pay12 xq xk s.1 s.1 s.2.2) (k1_pay13 xq xk xv s.1))

/-- The output block at a query block's last key block: numerators over denominators. -/
def outS (s : Scr F) : Vec F S1024x64 .f32 := k1_pay3 s.2.2 s.2.1

/-- The projection kernel's output block: rows of `x` times the fused weights. -/
def projS (x0 : Vec F S1024x256 .f32) (w : Vec F S256x192 .f32) : Vec F S1024x192 .bf16 := k0_pay1 x0 w

end Cert.KernelIdeal.Hand

end
-- ==== Proof.KI.Region0.lean ====
/-
  The projection kernel's region, entered with the TensorCore's buffers at any contents `V`.

  The grid has 8 points; point `t` stages rows `1024 t … 1024 t + 1023` of `x` (window 0), the whole fused weight matrix
  (window 1, fetched once) and writes back rows `1024 t …` of the projected array (window 2). The body loads the two input
  blocks, multiplies them and stores the product over the whole output block, so after the body the output's staging
  buffer holds `projS` of the two input blocks; nothing is kept between points.
-/
import proofs.«176530_j48687749268144_2_alg».proof.Proof.KI.Step
import proofs.«176530_j48687749268144_2_alg».proof.Proof.Gen.KernelIdeal.Launch
import proofs.«176530_j48687749268144_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S1024x256 := Rect.unit (s := S1024x256) ![0, 0] S1024x256.size inb_S1024x256_S1024x256_0_0
abbrev r0_1 : Rect S256x192 := Rect.unit (s := S256x192) ![0, 0] S256x192.size inb_S256x192_S256x192_0_0
abbrev r0_2 : Rect S1024x192 := Rect.unit (s := S1024x192) ![0, 0] S1024x192.size inb_S1024x192_S1024x192_0_0

/-- The output window's staging buffer after the body: its one store, over the whole block. -/
def out0_2 (x0 : Vec F S1024x256 .f32) (x1 : Vec F S256x192 .f32) : Vec F S1024x192 .bf16 :=
  View.canon [⟨r0_2, k0_pay1 (View.ld x0 r0_0) (View.ld x1 r0_1)⟩]

/-- The store covers the block. -/
theorem cover0_2 (p0 : Vec F S1024x192 .bf16) (y : S1024x192.Idx) :
    ∃ pc ∈ ([⟨r0_2, p0⟩] : List (View.Piece (Elt F) S1024x192 .bf16)), y ∈ pc.1.set :=
  View.cover_of_tiled [⟨r0_2, p0⟩] S1024x192.size (by rfl) y

set_option maxHeartbeats 1000000 in
/-- The body on whole staging memrefs: the inputs come back as they were, the output holds `out0_2` of the inputs. -/
theorem sound_kernel0 (c : Dev nD) (E : Set ℕ) (i : grid0.Coords) (arg1 : Memref sig .tc .vmem S1024x256 .f32) (harg1 : arg1.IsWhole) (arg2 : Memref sig .tc .vmem S256x192 .f32) (harg2 : arg2.IsWhole) (arg3 : Memref sig .tc .vmem S1024x192 .bf16) (harg3 : arg3.IsWhole)
    (x0 : Vec F S1024x256 .f32) (x1 : Vec F S256x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data: the arrays as found; after the body each input's buffer at its block, the output's at
    `out0_2` of the input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Defs.lean ====
/-
  The attention kernel's region: what its runs share.

  The grid is 8 × 8, point `t = 8 qi + ki`: query block `qi` (window 0, fetched when `ki = 0`), key block `ki` and value block `ki`
  (windows 1, 2, fetched at every point), output block `qi` (window 3, written back when `ki = 7`, untouched elsewhere). The
  body resets its three carried buffers when `ki = 0` and stores the output block when `ki = 7`; both conditions are decided
  over the grid in closed form.
-/
import proofs.«176530_j48687749268144_2_alg».proof.Proof.KI.Step
import proofs.«176530_j48687749268144_2_alg».proof.Proof.Gen.KernelIdeal.Launch
import proofs.«176530_j48687749268144_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two-by-zero offset, however spelt, is zero. -/
theorem hz2 : (![0, 0] : Fin 2 → Nat) = fun _ => 0 := by funext a; fin_cases a <;> rfl

/-- A store over a whole 1024×1 buffer covers it; likewise 1024×64. -/
theorem cover_col (L : List (View.Piece (Elt F) S1024x1 .f32)) (p : Vec F S1024x1 .f32) (y : S1024x1.Idx) :
    ∃ pc ∈ ((⟨Rect.unit (s := S1024x1) ![0, 0] S1024x1.size inb_S1024x1_S1024x1_0_0, p⟩ : View.Piece (Elt F) S1024x1 .f32) :: L), y ∈ pc.1.set :=
  ⟨_, List.mem_cons_self, by
    obtain ⟨pc, hpc, hy⟩ := View.cover_of_tiled [(⟨Rect.unit (s := S1024x1) ![0, 0] S1024x1.size inb_S1024x1_S1024x1_0_0, p⟩ : View.Piece (Elt F) S1024x1 .f32)] S1024x1.size (by rfl) y
    rw [List.mem_singleton] at hpc; subst hpc; exact hy⟩
theorem cover_blk (L : List (View.Piece (Elt F) S1024x64 .f32)) (p : Vec F S1024x64 .f32) (y : S1024x64.Idx) :
    ∃ pc ∈ ((⟨Rect.unit (s := S1024x64) ![0, 0] S1024x64.size inb_S1024x64_S1024x64_0_0, p⟩ : View.Piece (Elt F) S1024x64 .f32) :: L), y ∈ pc.1.set :=
  ⟨_, List.mem_cons_self, by
    obtain ⟨pc, hpc, hy⟩ := View.cover_of_tiled [(⟨Rect.unit (s := S1024x64) ![0, 0] S1024x64.size inb_S1024x64_S1024x64_0_0, p⟩ : View.Piece (Elt F) S1024x64 .f32)] S1024x64.size (by rfl) y
    rw [List.mem_singleton] at hpc; subst hpc; exact hy⟩

/-! ## The body's branch conditions -/

/-- "This is the first key block": the reset's condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last key block": the output store's condition. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key block the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The carried buffers as memrefs -/

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

/-- The other kernel's staging buffers, which ride along untouched, each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the region is handed beside its windows: the other kernel's staging buffers, the three carried buffers at
    anything, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.Region1RunA.lean ====
/-
  The attention kernel's body at the first key block of a query block: the carried buffers are reset, then stepped.
-/
import proofs.«176530_j48687749268144_2_alg».proof.Proof.KI.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs and whole carried buffers at anything: the inputs and the (idle) output block come back
    as they were, the carried buffers hold `stepS` of the input blocks and the reset contents. -/
theorem sound_kernel1_A (c : Dev nD) (E : Set ℕ) (i : grid1.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : ¬cond1_1 i)
    (xq xk xv : Vec F S1024x64 .bf16) (xo : Vec F S1024x64 .f32) (K : PUnit → sProp 𝕄) :
    iprop(owns (c : Thread nD τ) arg2 fullShare xq ∗ owns (c : Thread nD τ) arg3 fullShare xk ∗ owns (c : Thread nD τ) arg4 fullShare xv ∗ owns (c : Thread nD τ) arg5 fullShare xo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare xq ∗ owns (c : Thread nD τ) arg3 fullShare xk ∗ owns (c : Thread nD τ) arg4 fullShare xv ∗ owns (c : Thread nD τ) arg5 fullShare xo
            ∗ owns (c : Thread nD τ) arg6 fullShare (stepS xq xk xv initS).1 ∗ owns (c : Thread nD τ) arg7 fullShare (stepS xq xk xv initS).2.1 ∗ owns (c : Thread nD τ) arg8 fullShare (stepS xq xk xv initS).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    try sl_unfold_run_names
    rw [View.read_writes_eq_canon _ _ _ (cover_col _ _), View.canon_cons_unit_zero hz2]
    unfold stepS initS; dsimp only
    try sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]
  isplitl [H7]
  · iexists _; isplitr
    swap; · iexact H7
    ipureintro
    try sl_unfold_run_names
    rw [View.read_writes_eq_canon _ _ _ (cover_col _ _), View.canon_cons_unit_zero hz2]
    unfold stepS initS; dsimp only
    try sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]
  iexists _; isplitr
  swap; · iexact H8
  ipureintro
  try sl_unfold_run_names
  rw [View.read_writes_eq_canon _ _ _ (cover_blk _ _), View.canon_cons_unit_zero hz2]
  unfold stepS initS; dsimp only
  try sl_unfold_run_names
  simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]

end Cert.KernelIdeal.Hand

end
-- ==== Proof.KI.Region1RunB.lean ====
/-
  The attention kernel's body at a grid point that is neither the first nor the last key block of its query block.
-/
import proofs.«176530_j48687749268144_2_alg».proof.Proof.KI.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs and whole carried buffers at contents `s`: the inputs and the (idle) output block come back
    as they were, the carried buffers hold `stepS` of the input blocks and `s`. -/
theorem sound_kernel1_B (c : Dev nD) (E : Set ℕ) (i : grid1.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i)
    (xq xk xv : Vec F S1024x64 .bf16) (xo : Vec F S1024x64 .f32) (s : Scr F) (K : PUnit → sProp 𝕄) :
    iprop(owns (c : Thread nD τ) arg2 fullShare xq ∗ owns (c : Thread nD τ) arg3 fullShare xk ∗ owns (c : Thread nD τ) arg4 fullShare xv ∗ owns (c : Thread nD τ) arg5 fullShare xo
        ∗ owns (c : Thread nD τ) arg6 fullShare s.1 ∗ owns (c : Thread nD τ) arg7 fullShare s.2.1 ∗ owns (c : Thread nD τ) arg8 fullShare s.2.2
        ∗ (iprop(owns (c : Thread nD τ) arg2 fullShare xq ∗ owns (c : Thread nD τ) arg3 fullShare xk ∗ owns (c : Thread nD τ) arg4 fullShare xv ∗ owns (c : Thread nD τ) arg5 fullShare xo
            ∗ owns (c : Thread nD τ) arg6 fullShare (stepS xq xk xv s).1 ∗ owns (c : Thread nD τ) arg7 fullShare (stepS xq xk xv s).2.1 ∗ owns (c : Thread nD τ) arg8 fullShare (stepS xq xk xv s).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (cover_col _ _), View.canon_cons_unit_zero hz2]
    unfold stepS; dsimp only
    sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2]
  isplitl [H7]
  · iexists _; isplitr
    swap; · iexact H7
    ipureintro
    rw [View.read_writes_eq_canon _ _ _ (cover_col _ _), View.canon_cons_unit_zero hz2]
    unfold stepS; dsimp only
    simp only [View.readAt_eq_ld, harg2.read_unread, harg3.read_unread, harg4.read_unread, harg6.read_unread, harg7.read_unread, harg8.read_unread, View.ld_unit_zero (S := S1024x64) hz2, View.ld_unit_zero (S := S1024x1) hz2]
  iexists _; isplitr
  swap; · iexact H8
  ipureintro
  rw [View.read_writes_eq_canon _ _ _ (cover_blk _ _), View.canon_cons_unit_zero hz2]
  unfold stepS; dsimp only
  sl_unfold_run_names
  simp only [View.readAt_eq_ld, harg2.read_unread, harg3.read_unread, harg4.read_unread, harg6.read_unread, harg7.read_unread, harg8.read_unread, View.ld_unit_zero (S := S1024x64) hz2, View.ld_unit_zero (S := S1024x1) hz2]

end Cert.KernelIdeal.Hand

end
-- ==== Proof.KI.Region1RunC.lean ====
/-
  The attention kernel's body at the last key block of a query block: the carried buffers are stepped, then the quotient
  of numerators by denominators is stored over the output block.
-/
import proofs.«176530_j48687749268144_2_alg».proof.Proof.KI.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the output's at anything, and whole carried buffers at contents `s`: the inputs come back
    as they were, the carried buffers hold `stepS` of the input blocks and `s`, the output block `outS` of that. -/
theorem sound_kernel1_C (c : Dev nD) (E : Set ℕ) (i : grid1.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (xq xk xv : Vec F S1024x64 .bf16) (s : Scr F) (K : PUnit → sProp 𝕄) :
    iprop(owns (c : Thread nD τ) arg2 fullShare xq ∗ owns (c : Thread nD τ) arg3 fullShare xk ∗ owns (c : Thread nD τ) arg4 fullShare xv ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare xq ∗ owns (c : Thread nD τ) arg3 fullShare xk ∗ owns (c : Thread nD τ) arg4 fullShare xv ∗ owns (c : Thread nD τ) arg5 fullShare (outS (stepS xq xk xv s))
            ∗ owns (c : Thread nD τ) arg6 fullShare (stepS xq xk xv s).1 ∗ owns (c : Thread nD τ) arg7 fullShare (stepS xq xk xv s).2.1 ∗ owns (c : Thread nD τ) arg8 fullShare (stepS xq xk xv s).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    try sl_unfold_run_names
    rw [View.read_writes_eq_canon _ _ _ (cover_blk _ _), View.canon_cons_unit_zero hz2]
    unfold outS stepS; dsimp only
    try sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]
  isplitl [H6]
  · iexists _; isplitr
    swap; · iexact H6
    ipureintro
    try sl_unfold_run_names
    rw [View.read_writes_eq_canon _ _ _ (cover_col _ _), View.canon_cons_unit_zero hz2]
    unfold stepS; dsimp only
    try sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]
  isplitl [H7]
  · iexists _; isplitr
    swap; · iexact H7
    ipureintro
    try sl_unfold_run_names
    rw [View.read_writes_eq_canon _ _ _ (cover_col _ _), View.canon_cons_unit_zero hz2]
    unfold stepS; dsimp only
    try sl_unfold_run_names
    simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]
  iexists _; isplitr
  swap; · iexact H8
  ipureintro
  try sl_unfold_run_names
  rw [View.read_writes_eq_canon _ _ _ (cover_blk _ _), View.canon_cons_unit_zero hz2]
  unfold stepS; dsimp only
  try sl_unfold_run_names
  simp only [View.readAt_eq_ld, harg2.read_unread, harg3.read_unread, harg4.read_unread, harg6.read_unread, harg7.read_unread, harg8.read_unread, View.ld_unit_zero (S := S1024x64) hz2, View.ld_unit_zero (S := S1024x1) hz2, View.readCov_unit_zero (S := S1024x1) _ hz2, View.readCov_unit_zero (S := S1024x64) _ hz2]

end Cert.KernelIdeal.Hand

end
-- ==== Proof.KI.Region1.lean ====
/-
  The attention kernel's region, entered with the TensorCore's buffers at any contents `V`: what the three carried
  buffers hold after every grid point, the proof data, and the body obligation.

  After point `t = 8 qi + ki` the carried buffers hold `scrAt t`: `stepS` of the point's query, key and value blocks applied
  to the reset contents when `ki = 0` and to `scrAt (t − 1)` otherwise. The output block written back at `ki = 7` is `outS (scrAt t)`.
-/
import proofs.«176530_j48687749268144_2_alg».proof.Proof.KI.Region1RunA
import proofs.«176530_j48687749268144_2_alg».proof.Proof.KI.Region1RunB
import proofs.«176530_j48687749268144_2_alg».proof.Proof.KI.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and its wholeness. -/
abbrev ms1_0 (t : Fin cfg1.N) : Memref sig .tc .vmem S1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)

/-! ## What the carried buffers hold after each point -/

/-- The carried buffers after the body at position `n`. -/
def scrAt (c : Dev nD) : (n : ℕ) → n < cfg1.N → Scr F
  | 0, hn => (stepS (iblk1 V c 0 ⟨0, hn⟩) (iblk1 V c 1 ⟨0, hn⟩) (iblk1 V c 2 ⟨0, hn⟩) initS)
  | n + 1, hn =>
    if (n + 1) % 8 = 0 then (stepS (iblk1 V c 0 ⟨n + 1, hn⟩) (iblk1 V c 1 ⟨n + 1, hn⟩) (iblk1 V c 2 ⟨n + 1, hn⟩) initS)
    else (stepS (iblk1 V c 0 ⟨n + 1, hn⟩) (iblk1 V c 1 ⟨n + 1, hn⟩) (iblk1 V c 2 ⟨n + 1, hn⟩) (scrAt c n (Nat.lt_of_succ_lt hn)))

/-- At a first key block: the step from the reset contents. -/
theorem scrAt_first (c : Dev nD) (t : Fin cfg1.N) (h0 : t.val % 8 = 0) :
    scrAt V c t.val t.isLt = (stepS (iblk1 V c 0 t) (iblk1 V c 1 t) (iblk1 V c 2 t) initS) := by
  obtain ⟨n, hn⟩ := t
  cases n with
  | zero => rfl
  | succ n => exact (if_pos h0).trans rfl

/-- At a later key block: the step from what the point before left. -/
theorem scrAt_later (c : Dev nD) (t : Fin cfg1.N) (h0 : ¬t.val % 8 = 0) :
    scrAt V c t.val t.isLt = (stepS (iblk1 V c 0 t) (iblk1 V c 1 t) (iblk1 V c 2 t) (scrAt V c (t.val - 1) (Nat.lt_of_le_of_lt (Nat.sub_le _ _) t.isLt))) := by
  obtain ⟨n, hn⟩ := t
  cases n with
  | zero => exact absurd (Nat.zero_mod _) h0
  | succ n => exact (if_neg h0).trans rfl

/-- The region's invariant before position `n`: before the first point what the launch hands over; afterwards the
    other kernel's staging buffers at anything, the carried buffers at `scrAt (n − 1)`, the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare ((scrAt V c n hn).1) ∗ owns (c : Thread nD τ) scM1_1 fullShare ((scrAt V c n hn).2.1) ∗ owns (c : Thread nD τ) scM1_2 fullShare ((scrAt V c n hn).2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare ((scrAt V c n hn).1) ∗ owns (c : Thread nD τ) scM1_1 fullShare ((scrAt V c n hn).2.1) ∗ owns (c : Thread nD τ) scM1_2 fullShare ((scrAt V c n hn).2.2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare ((scrAt V c (n - 1) (by omega)).1) ∗ owns (c : Thread nD τ) scM1_1 fullShare ((scrAt V c (n - 1) (by omega)).2.1) ∗ owns (c : Thread nD τ) scM1_2 fullShare ((scrAt V c (n - 1) (by omega)).2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outS (scrAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outS (scrAt V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t) := by
  refine ⟨?_, ?_, ?_⟩
  · unfold Dat.leavesExact; rw [liveAt1_0 t, after1_0]
  · unfold Dat.leavesExact; rw [liveAt1_1 t, after1_1]
  · unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [(leaves_in V c t).1, (leaves_in V c t).2.1, (leaves_in V c t).2.2]
  have hN : t.val < 64 := lt_of_lt_of_eq t.isLt (show cfg1.N = 64 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [scrAt_first V c t h0]
    by_cases hz : t.val = 0
    · rw [PhiS_castSucc V c t, PhiS_zero V c _ _ hz, PhiA1_eq]
      iintro ⟨⟨⟨HA, HB, HC, HD, HE, HS0, HS1, HS2⟩, Hg⟩, Ho, ⟨%d0, H0⟩, ⟨%d1, H1⟩, ⟨%d2, H2⟩, ⟨%d3, H3⟩⟩
      iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HA HB HC HD HE HS0 HS1 HS2 Hg]
      · isplitr [Hg]
        · isplitl [HA]; · iexact HA
          isplitl [HB]; · iexact HB
          isplitl [HC]; · iexact HC
          isplitl [HD]; · iexact HD
          isplitl [HE]; · iexact HE
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA, HB, HC, HD, HE, HS0, HS1, HS2⟩, Hg⟩, Ho, ⟨%d0, H0⟩, ⟨%d1, H1⟩, ⟨%d2, H2⟩, ⟨%d3, H3⟩⟩
      iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HA HB HC HD HE HS0 HS1 HS2 Hg]
      · isplitr [Hg]
        · isplitl [HA]; · iexact HA
          isplitl [HB]; · iexact HB
          isplitl [HC]; · iexact HC
          isplitl [HD]; · iexact HD
          isplitl [HE]; · iexact HE
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [scrAt_later V c t h0, PhiS_castSucc V c t, PhiS_pos V c _ _ hz]
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3, scrAt_later V c t h0]
      iintro ⟨⟨⟨HA, HB, HC, HD, HE, HS0, HS1, HS2⟩, Hg⟩, Ho, ⟨%d0, H0⟩, ⟨%d1, H1⟩, ⟨%d2, H2⟩, ⟨%d3, H3⟩⟩
      iapply (sound_kernel1_C c Set.univ (grid1.coords t) _ _ _ _ _ _ _ _ _ _ _ _ _ _ (fun h => h0 ((hcond1_0 t).mp h)) ((hcond1_1 t).mpr h1) (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HA HB HC HD HE HS0 HS1 HS2 Hg]
      · isplitr [Hg]
        · isplitl [HA]; · iexact HA
          isplitl [HB]; · iexact HB
          isplitl [HC]; · iexact HC
          isplitl [HD]; · iexact HD
          isplitl [HE]; · iexact HE
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨HA, HB, HC, HD, HE, HS0, HS1, HS2⟩, Hg⟩, Ho, ⟨%d0, H0⟩, ⟨%d1, H1⟩, ⟨%d2, H2⟩, ⟨%d3, H3⟩⟩
      iapply (sound_kernel1_B c Set.univ (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HA HB HC HD HE HS0 HS1 HS2 Hg]
      · isplitr [Hg]
        · isplitl [HA]; · iexact HA
          isplitl [HB]; · iexact HB
          isplitl [HC]; · iexact HC
          isplitl [HD]; · iexact HD
          isplitl [HE]; · iexact HE
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the launch handed over: the carried buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HA, HB, HC, HD, HE, HS0, HS1, HS2⟩, Hg⟩
  isplitr [Hg]
  · isplitl [HA]; · iexact HA
    isplitl [HB]; · iexact HB
    isplitl [HC]; · iexact HC
    isplitl [HD]; · iexact HD
    isplitl [HE]; · iexact HE
    isplitl [HS0]; · iexists _; iexact HS0
    isplitl [HS1]; · iexists _; iexact HS1
    iexists _; iexact HS2
  iexact Hg

end Cert.KernelIdeal.Hand

end
-- ==== Proof.KI.Run.lean ====
/-
  The whole program's run: the host operations that scale the query weights and fuse the three weight matrices, the
  projection region, the three column slices of its result, the attention region.

  The TensorCore's buffer contents are followed through the four segments (`W0` … `W4`): a stretch of host operations
  leaves its operations' results, a region leaves its windows' arrays at what its write-backs leave and every other
  buffer as it was. Every weakly fair execution terminates with every unscoped buffer at `W4`; the argument arrays read
  back through the fold are the launch contents.
-/
import proofs.«176530_j48687749268144_2_alg».proof.Proof.KI.Region0
import proofs.«176530_j48687749268144_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with its arrays
    at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with its arrays
    at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and the
    final state has every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result named: the attention region's output array after its last write-back. -/
theorem run_value : θ_run defs (onTc (τ := τ) (main (F := F))) ⟨m, fun _ => 0, ρ⟩ (fun r => ∀ c : Dev nD,
      r.2.mem ((c.tc : Thread nD τ).loc main_v7) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_v7 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.KI.HostRead.lean ====
/-
  What the host operations around the two regions leave, read at an index.

  Before the projection region the query weights are scaled by the constant `1/64` and the three weight matrices are laid
  side by side into one `256 × 192` matrix: columns `0 … 63` the scaled query weights, `64 … 127` the key weights,
  `128 … 191` the value weights. After it the projected `8192 × 192` array is cut into its three `8192 × 64` column bands.
-/
import proofs.«176530_j48687749268144_2_alg».proof.Proof.KI.Run
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The fused weight matrix as the host operations compute it from the three argument matrices. -/
def fusedW (wq wk wv : S256x64.Idx → EReal) : S256x192.Idx → EReal :=
  concatenate S256x192 1 [⟨S256x64, mulf (F := Ideal) wq (broadcastInDim S256x64 ![] Facts₀.bcast_S_S256x64 (constant (F := Ideal) S_ .f32 0x3C800000#32))⟩, ⟨S256x64, wk⟩, ⟨S256x64, wv⟩] Facts₀.concatenates_S256x64_S256x64_S256x64_S256x192_d1

/-- The projection region finds the rows of `x` as launched and the fused weights. -/
theorem V1_arg0 (c : Dev nD) : V1 m ρ c main_arg0 = m ((c : Thread nD τ).loc main_arg0) := by
  show StableHlo.after hostOps0 _ (Proc.devRef .tc main_arg0) = _
  after_results
  try rfl
theorem V1_v2 (c : Dev nD) : (V1 m ρ c main_v2 : S256x192.Idx → EReal)
    = fusedW (m ((c : Thread nD τ).loc main_arg1)) (m ((c : Thread nD τ).loc main_arg2)) (m ((c : Thread nD τ).loc main_arg3)) := by
  show StableHlo.after hostOps0 _ (Proc.devRef .tc main_v2) = _
  after_results
  try rfl

/-- The attention region finds the three column bands of what the projection region left. -/
theorem V3_v4 (c : Dev nD) : (V3 m ρ c main_v4 : S8192x64.Idx → EReal)
    = extractStridedSlice S8192x64 ![0, 0] (V2 m ρ c main_v3) Facts₀.slices_S8192x192_S8192x64_0_0 := by
  show StableHlo.after hostOps1 _ (Proc.devRef .tc main_v4) = _
  after_results
  try rfl
theorem V3_v5 (c : Dev nD) : (V3 m ρ c main_v5 : S8192x64.Idx → EReal)
    = extractStridedSlice S8192x64 ![0, 64] (V2 m ρ c main_v3) Facts₀.slices_S8192x192_S8192x64_0_64 := by
  show StableHlo.after hostOps1 _ (Proc.devRef .tc main_v5) = _
  after_results
  try rfl
theorem V3_v6 (c : Dev nD) : (V3 m ρ c main_v6 : S8192x64.Idx → EReal)
    = extractStridedSlice S8192x64 ![0, 128] (V2 m ρ c main_v3) Facts₀.slices_S8192x192_S8192x64_0_128 := by
  show StableHlo.after hostOps1 _ (Proc.devRef .tc main_v6) = _
  after_results
  try rfl

end Cert.KernelIdeal.Hand

end
-- ==== Proof.KI.Bands.lean ====
/-
  The fused weight matrix and the three column bands, entry by entry.
-/
import proofs.«176530_j48687749268144_2_alg».proof.Proof.KI.HostRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Column `d < 64` of the fused weights is the query weights' column `d`, scaled. -/
theorem fusedW_q (wq wk wv : S256x64.Idx → EReal) (e : Fin 256) (d : Fin 64) :
    fusedW wq wk wv (ix2 e (⟨d.val, by have := d.isLt; omega⟩ : Fin 192)) = wq (ix2 e d) * Ideal.ofBits .f32 0x3C800000#32 := by
  unfold fusedW
  refine (concatenate_apply_piece (t := S256x192) (1 : Fin 2) _ _ _ 0 ?hk S256x64 (mulf (F := Ideal) wq (broadcastInDim S256x64 ![] Facts₀.bcast_S_S256x64 (constant (F := Ideal) S_ .f32 0x3C800000#32))) ?hxk ?hr 0 ?hpre (ix2 e d) ?hi ?ha).trans ?_
  case hk => show (_ : ℕ) < 3; omega
  case hxk => rfl
  case hr => rfl
  case hpre => rfl
  case hi =>
    intro b hb
    match b with
    | ⟨0, _⟩ => rfl
    | ⟨1, _⟩ => exact absurd rfl hb
  case ha => exact Nat.zero_add _
  rfl

/-- Column `64 + d` is the key weights' column `d`. -/
theorem fusedW_k (wq wk wv : S256x64.Idx → EReal) (e : Fin 256) (d : Fin 64) :
    fusedW wq wk wv (ix2 e (⟨64 + d.val, by have := d.isLt; omega⟩ : Fin 192)) = wk (ix2 e d) := by
  unfold fusedW
  refine concatenate_apply_piece (t := S256x192) (1 : Fin 2) _ _ _ 1 ?hk S256x64 wk ?hxk ?hr 64 ?hpre (ix2 e d) ?hi ?ha
  case hk => show (_ : ℕ) < 3; omega
  case hxk => rfl
  case hr => rfl
  case hpre => rfl
  case hi =>
    intro b hb
    match b with
    | ⟨0, _⟩ => rfl
    | ⟨1, _⟩ => exact absurd rfl hb
  case ha => rfl

/-- Column `128 + d` is the value weights' column `d`. -/
theorem fusedW_v (wq wk wv : S256x64.Idx → EReal) (e : Fin 256) (d : Fin 64) :
    fusedW wq wk wv (ix2 e (⟨128 + d.val, by have := d.isLt; omega⟩ : Fin 192)) = wv (ix2 e d) := by
  unfold fusedW
  refine concatenate_apply_piece (t := S256x192) (1 : Fin 2) _ _ _ 2 ?hk S256x64 wv ?hxk ?hr 128 ?hpre (ix2 e d) ?hi ?ha
  case hk => show (_ : ℕ) < 3; omega
  case hxk => rfl
  case hr => rfl
  case hpre => rfl
  case hi =>
    intro b hb
    match b with
    | ⟨0, _⟩ => rfl
    | ⟨1, _⟩ => exact absurd rfl hb
  case ha => rfl

/-- A column band of a `8192 × 192` array at `(i, d)` is the array at `(i, o + d)`. -/
theorem band0_apply (P : S8192x192.Idx → EReal) (i : Fin 8192) (d : Fin 64) :
    extractStridedSlice S8192x64 ![0, 0] P Facts₀.slices_S8192x192_S8192x64_0_0 (ix2 i d) = P (ix2 i (⟨d.val, by have := d.isLt; omega⟩ : Fin 192)) :=
  extractStridedSlice_apply _ P _ (ix2 i d) (ix2 i (⟨d.val, by have := d.isLt; omega⟩ : Fin 192)) (fun a => by
    match a with
    | ⟨0, _⟩ => exact (Nat.zero_add _).symm
    | ⟨1, _⟩ => exact (Nat.zero_add _).symm)
theorem band64_apply (P : S8192x192.Idx → EReal) (i : Fin 8192) (d : Fin 64) :
    extractStridedSlice S8192x64 ![0, 64] P Facts₀.slices_S8192x192_S8192x64_0_64 (ix2 i d) = P (ix2 i (⟨64 + d.val, by have := d.isLt; omega⟩ : Fin 192)) :=
  extractStridedSlice_apply _ P _ (ix2 i d) (ix2 i (⟨64 + d.val, by have := d.isLt; omega⟩ : Fin 192)) (fun a => by
    match a with
    | ⟨0, _⟩ => exact (Nat.zero_add _).symm
    | ⟨1, _⟩ => rfl)
theorem band128_apply (P : S8192x192.Idx → EReal) (i : Fin 8192) (d : Fin 64) :
    extractStridedSlice S8192x64 ![0, 128] P Facts₀.slices_S8192x192_S8192x64_0_128 (ix2 i d) = P (ix2 i (⟨128 + d.val, by have := d.isLt; omega⟩ : Fin 192)) :=
  extractStridedSlice_apply _ P _ (ix2 i d) (ix2 i (⟨128 + d.val, by have := d.isLt; omega⟩ : Fin 192)) (fun a => by
    match a with
    | ⟨0, _⟩ => exact (Nat.zero_add _).symm
    | ⟨1, _⟩ => rfl)

end Cert.KernelIdeal.Hand

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.KI.PayMatmul.lean ====
/-
  The three matrix products of the two kernels read at an entry, at the ideal values.

  Each product contracts the left operand's second axis with the right operand's first into a zero accumulator, so
  its entry at row r and column c is the plain sum over k of left[r,k] * right[k,c]. The operands reach the product
  through changes of format (the identity on extended reals), casts of a shape to itself (the identity) and, for
  the score product, a transposition of the key block: the score of query row r against key row jj is the inner
  product of the two rows.
-/
import proofs.«176530_j48687749268144_2_alg».proof.Proof.KI.Step
import proofs.«176530_j48687749268144_2_alg».proof.Proof.LibMatmulSum
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-- The dimension record of the score product: query block [1024,64] times transposed key block [64,1024]. -/
abbrev dotQK : DotDims S1024x64 S64x1024 S1024x1024 := dot_S1024x64_S64x1024_S1024x1024_1_0_0_1_n_n
/-- The dimension record of the weights-times-values product: [1024,1024] times [1024,64]. -/
abbrev dotPV : DotDims S1024x1024 S1024x64 S1024x64 := dot_S1024x1024_S1024x64_S1024x64_1_0_0_1_n_n
/-- The dimension record of the projection: [1024,256] times [256,192]. -/
abbrev dotXW : DotDims S1024x256 S256x192 S1024x192 := dot_S1024x256_S256x192_S1024x192_1_0_0_1_n_n

/-! ## Which coordinate of each operand index comes from where -/

theorem dotQK_l0 (i : S1024x1024.Idx) (q : dotQK.contr.Idx) : (dotQK.lhsIdx i q 0).val = (i 0).val := by
  unfold DotDims.lhsIdx
  rw [dif_neg (show ¬(0 : Fin S1024x64.rank) ∈ dotQK.lhsBatch by decide),
    dif_pos (show (0 : Fin S1024x64.rank) ∈ dotQK.lhsNonContracting by decide)]
  rfl
theorem dotQK_l1 (i : S1024x1024.Idx) (q : dotQK.contr.Idx) : (dotQK.lhsIdx i q 1).val = (q ⟨0, by decide⟩).val :=
  dotQK.lhsIdx_val_of_single rfl i q
theorem dotQK_r0 (i : S1024x1024.Idx) (q : dotQK.contr.Idx) : (dotQK.rhsIdx i q 0).val = (q ⟨0, by decide⟩).val :=
  dotQK.rhsIdx_val_of_single rfl i q
theorem dotQK_r1 (i : S1024x1024.Idx) (q : dotQK.contr.Idx) : (dotQK.rhsIdx i q 1).val = (i 1).val := by
  unfold DotDims.rhsIdx
  rw [dif_neg (show ¬(1 : Fin S64x1024.rank) ∈ dotQK.rhsBatch by decide),
    dif_pos (show (1 : Fin S64x1024.rank) ∈ dotQK.rhsNonContracting by decide)]
  rfl

theorem dotPV_l0 (i : S1024x64.Idx) (q : dotPV.contr.Idx) : (dotPV.lhsIdx i q 0).val = (i 0).val := by
  unfold DotDims.lhsIdx
  rw [dif_neg (show ¬(0 : Fin S1024x1024.rank) ∈ dotPV.lhsBatch by decide),
    dif_pos (show (0 : Fin S1024x1024.rank) ∈ dotPV.lhsNonContracting by decide)]
  rfl
theorem dotPV_l1 (i : S1024x64.Idx) (q : dotPV.contr.Idx) : (dotPV.lhsIdx i q 1).val = (q ⟨0, by decide⟩).val :=
  dotPV.lhsIdx_val_of_single rfl i q
theorem dotPV_r0 (i : S1024x64.Idx) (q : dotPV.contr.Idx) : (dotPV.rhsIdx i q 0).val = (q ⟨0, by decide⟩).val :=
  dotPV.rhsIdx_val_of_single rfl i q
theorem dotPV_r1 (i : S1024x64.Idx) (q : dotPV.contr.Idx) : (dotPV.rhsIdx i q 1).val = (i 1).val := by
  unfold DotDims.rhsIdx
  rw [dif_neg (show ¬(1 : Fin S1024x64.rank) ∈ dotPV.rhsBatch by decide),
    dif_pos (show (1 : Fin S1024x64.rank) ∈ dotPV.rhsNonContracting by decide)]
  rfl

theorem dotXW_l0 (i : S1024x192.Idx) (q : dotXW.contr.Idx) : (dotXW.lhsIdx i q 0).val = (i 0).val := by
  unfold DotDims.lhsIdx
  rw [dif_neg (show ¬(0 : Fin S1024x256.rank) ∈ dotXW.lhsBatch by decide),
    dif_pos (show (0 : Fin S1024x256.rank) ∈ dotXW.lhsNonContracting by decide)]
  rfl
theorem dotXW_l1 (i : S1024x192.Idx) (q : dotXW.contr.Idx) : (dotXW.lhsIdx i q 1).val = (q ⟨0, by decide⟩).val :=
  dotXW.lhsIdx_val_of_single rfl i q
theorem dotXW_r0 (i : S1024x192.Idx) (q : dotXW.contr.Idx) : (dotXW.rhsIdx i q 0).val = (q ⟨0, by decide⟩).val :=
  dotXW.rhsIdx_val_of_single rfl i q
theorem dotXW_r1 (i : S1024x192.Idx) (q : dotXW.contr.Idx) : (dotXW.rhsIdx i q 1).val = (i 1).val := by
  unfold DotDims.rhsIdx
  rw [dif_neg (show ¬(1 : Fin S256x192.rank) ∈ dotXW.rhsBatch by decide),
    dif_pos (show (1 : Fin S256x192.rank) ∈ dotXW.rhsNonContracting by decide)]
  rfl

/-! ## The products at an entry -/

/-- The score of query row `r` against key row `jj`: the inner product of the two rows. -/
theorem pay7_apply (xq xk : Vec Ideal S1024x64 .bf16) (r jj : Fin 1024) :
    k1_pay7 xq xk (ix2 r jj) = ∑ d : Fin 64, xq (ix2 r d) * xk (ix2 jj d) := by
  unfold k1_pay7
  refine (Cert.GraphConv.matmul_zero_sum dotQK none rfl rfl dotQK_l0 dotQK_l1 dotQK_r0 dotQK_r1 _ _ (ix2 r jj)).trans ?_
  refine Finset.sum_congr rfl fun d _ => ?_
  have e1 : shapeCast S1024x64 xq shapeCasts_S1024x64_S1024x64 (ix2 r d) = xq (ix2 r d) :=
    congrFun (shapeCast_self xq _) _
  have e2 : transpose S64x1024 [1, 0] (shapeCast S1024x64 xk shapeCasts_S1024x64_S1024x64) transposes_S1024x64_p1_0_S64x1024 (ix2 d jj)
      = xk (ix2 jj d) :=
    (transpose_apply [1, 0] _ transposes_S1024x64_p1_0_S64x1024 (ix2 d jj) (ix2 jj d) fun b => by
      match b with
      | ⟨0, _⟩ => rfl
      | ⟨1, _⟩ => rfl).trans (congrFun (shapeCast_self xk _) _)
  exact congrArg₂ (· * ·) e1 e2

/-- The weights-times-values product at row `r`, column `c`, for any weights `p`. -/
theorem matmulPV_apply (p : FVec Ideal S1024x1024 .f32) (xv : FVec Ideal S1024x64 .bf16) (r : Fin 1024) (c : Fin 64) :
    matmul dotPV none (truncf .bf16 p bitsLt_bf16_f32) (shapeCast S1024x64 xv shapeCasts_S1024x64_S1024x64)
        (constant (F := Ideal) S1024x64 .f32 0x00000000#32) (ix2 r c)
      = ∑ jj : Fin 1024, p (ix2 r jj) * xv (ix2 jj c) := by
  refine (Cert.GraphConv.matmul_zero_sum dotPV none rfl rfl dotPV_l0 dotPV_l1 dotPV_r0 dotPV_r1 _ _ (ix2 r c)).trans ?_
  refine Finset.sum_congr rfl fun jj _ => ?_
  have e2 : shapeCast S1024x64 xv shapeCasts_S1024x64_S1024x64 (ix2 jj c) = xv (ix2 jj c) :=
    congrFun (shapeCast_self xv _) _
  exact congrArg₂ (· * ·) rfl e2

/-- The projection kernel's output at row `r`, column `c`. -/
theorem projS_apply (x0 : Vec Ideal S1024x256 .f32) (w : Vec Ideal S256x192 .f32) (r : Fin 1024) (c : Fin 192) :
    projS x0 w (ix2 r c) = ∑ e : Fin 256, x0 (ix2 r e) * w (ix2 e c) := by
  unfold projS k0_pay1
  refine (Cert.GraphConv.matmul_zero_sum dotXW none rfl rfl dotXW_l0 dotXW_l1 dotXW_r0 dotXW_r1 _ _ (ix2 r c)).trans ?_
  refine Finset.sum_congr rfl fun e _ => ?_
  have e2 : shapeCast S256x192 w shapeCasts_S256x192_S256x192 (ix2 e c) = w (ix2 e c) :=
    congrFun (shapeCast_self w _) _
  exact congrArg₂ (· * ·) rfl e2

end Cert.KernelIdeal.Hand

end
-- ==== Proof.KI.Value0.lean ====
/-
  The projection kernel's output array as one function of its two argument arrays.

  Grid point `t` of the region writes back rows `1024 t … 1024 t + 1023` of the output; what it writes at row `r`,
  column `c` of that block is the product of the staged blocks there: the sum over `e` of the x block's entry `(r, e)`
  times the weight block's entry `(e, c)`. The x block at point `t` is rows `1024 t …` of `x` and the weight block is
  the whole weight array, so the entry is the sum over `e` of `x (1024 t + r, e) * w (e, c)`: the entry at
  `(1024 t + r, c)` of one whole-array function `G0 x w`. The eight blocks tile the 8192 rows (row `i` is in the block
  of point `i / 1024`), so after the region the output array is `G0 x w`.
-/
import proofs.«176530_j48687749268144_2_alg».proof.Proof.KI.Region0
import proofs.«176530_j48687749268144_2_alg».proof.Proof.KI.PayMatmul
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- rows of x times the fused weights -/
def G0 (xa : S8192x256.Idx → EReal) (wa : S256x192.Idx → EReal) : S8192x192.Idx → EReal :=
  fun i => ∑ e : Fin 256, xa (ix2 (i 0 : Fin 8192) e) * wa (ix2 e (i 1 : Fin 192))

/-- The zero offsets of a whole-block rectangle, as a constant function. -/
theorem hz0 : (![0, 0] : Fin 2 → Nat) = fun _ => 0 := funext fun a => by fin_cases a <;> rfl

/-- The printed index maps, decided over the 8 grid points: at point `t` the x window and the output window are at
    block `(t, 0)`, the weight window at block `(0, 0)`. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The x window's block at point `t` is rows `1024 t … 1024 t + 1023` of `x`. -/
theorem iblk0_0_apply (c : Dev nD) (t : Fin cfg0.N) (x : S1024x256.Idx) (k : S8192x256.Idx)
    (hk0 : (k 0).val = 1024 * t.val + (x 0).val) (hk1 : (k 1).val = (x 1).val) :
    (iblk0 V c 0 t : Vec Ideal S1024x256 .f32) x = (V c main_arg0 : S8192x256.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 256 + 1 * (x 1).val = (k 1).val; rw [e1, hk1]; omega

/-- The weight window's block at every point is the whole weight array. -/
theorem iblk0_1_apply (c : Dev nD) (t : Fin cfg0.N) (x : S256x192.Idx) (k : S256x192.Idx)
    (hk0 : (k 0).val = (x 0).val) (hk1 : (k 1).val = (x 1).val) :
    (iblk0 V c 1 t : Vec Ideal S256x192 .f32) x = (V c main_v2 : S256x192.Idx → EReal) k := by
  obtain ⟨-, -, e2, e3, -⟩ := idx_facts0 t
  unfold iblk0
  rw [View.read_apply]
  show V c main_v2 _ = V c main_v2 _
  congr 1
  funext a
  apply Fin.ext
  match a with
  | ⟨0, _⟩ => show win0_1.index t (0 : Fin 2) * 256 + 1 * (x 0).val = (k 0).val; rw [e2, hk0]; omega
  | ⟨1, _⟩ => show win0_1.index t (1 : Fin 2) * 192 + 1 * (x 1).val = (k 1).val; rw [e3, hk1]; omega

/-- One entry of a block product is the entry of `G0` at the row the block's row sits at: if the left block is rows
    `1024 n …` of `xa` and the right block is `wa`, entry `(r, c)` of the product is `G0 xa wa` at `(1024 n + r, c)`. -/
theorem projS_entry (x0 : Vec Ideal S1024x256 .f32) (w : Vec Ideal S256x192 .f32)
    (xa : S8192x256.Idx → EReal) (wa : S256x192.Idx → EReal) (n : Nat) (r : Fin 1024) (c : Fin 192) (i : S8192x192.Idx)
    (hx : ∀ (e : Fin 256) (k : S8192x256.Idx), (k 0).val = 1024 * n + r.val → (k 1).val = e.val → x0 (ix2 r e) = xa k)
    (hw : ∀ (e : Fin 256) (k : S256x192.Idx), (k 0).val = e.val → (k 1).val = c.val → w (ix2 e c) = wa k)
    (hi0 : (i 0).val = 1024 * n + r.val) (hi1 : (i 1).val = c.val) :
    projS x0 w (ix2 r c) = G0 xa wa i := by
  rw [projS_apply]
  unfold G0
  refine Finset.sum_congr rfl fun e _ => ?_
  rw [hx e (ix2 (i 0 : Fin 8192) e) hi0 rfl, hw e (ix2 e (i 1 : Fin 192)) rfl hi1]

/-- WHAT POINT `t` WRITES BACK is block `t` of `G0` of the two argument arrays as the region finds them. -/
theorem flushed_eq0 (c : Dev nD) (t : Fin cfg0.N) :
    (dat0 V c).flushed 2 t = ((cfg0.win 2).blk t).view.read (Elt Ideal) (G0 (V c main_arg0) (V c main_v2)) := by
  show (cfg0.win 2).cut (grid0.coords t) ((dat0 V c).after 2 t) = _
  rw [after0_2]
  unfold out0_2
  rw [View.canon_unit_zero hz0]
  simp only [View.ld_unit_zero (S := S1024x256) hz0, View.ld_unit_zero (S := S256x192) hz0]
  obtain ⟨-, -, -, -, e4, e5⟩ := idx_facts0 t
  funext j
  obtain ⟨r, c', rfl⟩ : ∃ (r : Fin 1024) (c' : Fin 192), j = ix2 r c' := ⟨j 0, j 1, eq_ix2 j⟩
  show projS (iblk0 V c 0 t) (iblk0 V c 1 t) (ix2 r c')
    = G0 (V c main_arg0) (V c main_v2) (((cfg0.win 2).blk t).view.emb (ix2 r c'))
  refine projS_entry _ _ _ _ t.val r c' _ (fun e k hk0 hk1 => ?_) (fun e k hk0 hk1 => ?_) ?_ ?_
  · exact iblk0_0_apply V c t (ix2 r e) k hk0 hk1
  · exact iblk0_1_apply V c t (ix2 e c') k hk0 hk1
  · show win0_2.index t (0 : Fin 2) * 1024 + 1 * r.val = 1024 * t.val + r.val
    rw [e4]; omega
  · show win0_2.index t (1 : Fin 2) * 192 + 1 * c'.val = c'.val
    rw [e5]; omega

/-- An index of the output array is in point `t`'s block iff each coordinate is in the block's range on its axis. -/
theorem mem_blk0 (t : Fin cfg0.N) (i : S8192x192.Idx) :
    i ∈ ((cfg0.win 2).blk t).view.set ↔ ∀ a : Fin 2, win0_2.index t a * S1024x192.size a ≤ (i a).val ∧ (i a).val < win0_2.index t a * S1024x192.size a + S1024x192.size a := by
  show i ∈ ((View.whole main_v3).slice (win0_2.rect t)).set ↔ _
  rw [View.set_slice_whole, Rect.mem_set_unit]
  exact Iff.rfl

/-- THE COVER: row `i` of the output array is in the block of point `i / 1024`. -/
theorem cover0 (i : S8192x192.Idx) :
    ∃ t : Fin cfg0.N, (cfg0.win 2).flush t = true ∧ i ∈ ((cfg0.win 2).blk t).view.set := by
  have hN : grid0.N = 8 := N_0
  have hi0 : (i 0).val < 8192 := (i 0).isLt
  have hi1 : (i 1).val < 192 := (i 1).isLt
  have ht : (i 0).val / 1024 < cfg0.N := by show (i 0).val / 1024 < grid0.N; rw [hN]; omega
  obtain ⟨-, -, -, -, e4, e5⟩ := idx_facts0 ⟨(i 0).val / 1024, ht⟩
  refine ⟨⟨(i 0).val / 1024, ht⟩, flush0_2 _, ?_⟩
  rw [mem_blk0]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ (1 : Fin 2) * 192 ≤ (i 1).val ∧ (i 1).val < win0_2.index ⟨(i 0).val / 1024, ht⟩ (1 : Fin 2) * 192 + 192
    rw [e5]; omega

/-- THE OUTPUT ARRAY after the region: `G0` of the two argument arrays as the region finds them. -/
theorem final0 (c : Dev nD) : (dat0 V c).arrAt 2 cfg0.N = G0 (V c main_arg0) (V c main_v2) :=
  (dat0 V c).arrAt_eq_of_cover 2 (G0 (V c main_arg0) (V c main_v2)) (fun t _ => flushed_eq0 V c t) cover0

end Cert.KernelIdeal.Hand

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.KI.PayValue.lean ====
/-
  The attention kernel's remaining payloads read at an index, at the ideal values.

  With `s r jj` the score of query row `r` against key row `jj` of the block, the body computes per row
  the new maximum `m' = max m (max_jj s r jj)`, the rescaling factor `exp (m - m')`, the weights
  `exp (s r jj - m')`, the new denominator `exp (m - m') * l + Σ_jj exp (s r jj - m')` and the new numerators
  `exp (m - m') * acc + Σ_jj exp (s r jj - m') * v jj c`. The row maximum and the row sum come back as vectors
  and are cast to columns; a column is broadcast along a row before it meets a matrix.
-/
import proofs.«176530_j48687749268144_2_alg».proof.Proof.KI.PayMatmul
import proofs.«176530_j48687749268144_2_alg».proof.Proof.LibKeepdims

noncomputable section

open scoped BigOperators

namespace Cert.KernelIdeal.Hand

open Idealize.ShloMosaic Idealize.ShloMosaic.ValueIdx Cert.KernelIdeal Cert.KernelIdeal.Gen

/-- The maximum along the rows of a matrix: at `p`, the fold of `max` over the columns `q` of the entry `(p, q)`. -/
theorem max_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun q => src (ix2 p q)) := by
  refine (Ideal.multiReduction_maximumf_single src acc h hφ hacc (ix1 p)).trans ?_
  refine Finset.fold_congr fun q _ => ?_
  exact congrArg src (funext fun d => Fin.ext (by match d with | ⟨0, _⟩ => rfl | ⟨1, _⟩ => rfl))

/-- The word `0xFF800000` read as a single-precision value is minus infinity. -/
theorem ofBits_negInf_f32 : Ideal.ofBits .f32 0xFF800000#32 = ⊥ := by simp [Ideal.ofBits, Ideal.ieee]

/-! ## The reset values -/

theorem pay4_apply (i : S1024x1.Idx) : k1_pay4 (F := Ideal) i = ⊥ := by
  unfold k1_pay4
  refine (congrFun (shapeCast_self _ shapeCasts_S1024x1_S1024x1) i).trans ?_
  exact ofBits_negInf_f32

theorem pay5_apply (i : S1024x1.Idx) : k1_pay5 (F := Ideal) i = 0 := by
  unfold k1_pay5
  refine (congrFun (shapeCast_self _ shapeCasts_S1024x1_S1024x1) i).trans ?_
  exact Ideal.ofBits_zero_f32

theorem pay6_apply (i : S1024x64.Idx) : k1_pay6 (F := Ideal) i = 0 := by
  unfold k1_pay6
  refine (congrFun (shapeCast_self _ shapeCasts_S1024x64_S1024x64) i).trans ?_
  exact Ideal.ofBits_zero_f32

/-! ## One grid point's arithmetic -/

/-- The new row maximum: the old one against the largest score of the row. -/
theorem pay8_apply (xq xk : Vec Ideal S1024x64 .bf16) (m : Vec Ideal S1024x1 .f32) (r : Fin 1024) (u : Fin 1) :
    k1_pay8 xq xk m (ix2 r u)
      = max (m (ix2 r u))
          ((Finset.univ : Finset (Fin 1024)).fold max ⊥ (fun jj => ∑ d : Fin 64, xq (ix2 r d) * xk (ix2 jj d))) := by
  unfold k1_pay8
  refine congrArg (max (m (ix2 r u))) ?_
  refine (Cert.LibKeepdims.shapeCast_a_a1_apply _ shapeCasts_S1024_S1024x1 r u).trans ?_
  refine (max_axis1_apply (k1_pay7 xq xk) 0xFF800000#32 reduces_S1024x1024_S1024 (.inl rfl) rfl r).trans ?_
  rw [ofBits_negInf_f32]
  exact Finset.fold_congr fun jj _ => pay7_apply xq xk r jj

/-- The rescaling factor: `exp (old maximum - new maximum)`. -/
theorem pay9_apply (xq xk : Vec Ideal S1024x64 .bf16) (m mo : Vec Ideal S1024x1 .f32) (r : Fin 1024) (u : Fin 1) :
    k1_pay9 xq xk m mo (ix2 r u) = Ideal.exp (mo (ix2 r u) - k1_pay8 xq xk m (ix2 r u)) := rfl

/-- The weights: `exp (score - new maximum of the row)`. -/
theorem pay10_apply (xq xk : Vec Ideal S1024x64 .bf16) (m : Vec Ideal S1024x1 .f32) (r jj : Fin 1024) :
    k1_pay10 xq xk m (ix2 r jj) = Ideal.exp (k1_pay7 xq xk (ix2 r jj) - k1_pay8 xq xk m (ix2 r (0 : Fin 1))) := by
  unfold k1_pay10
  exact congrArg (fun z => Ideal.exp (k1_pay7 xq xk (ix2 r jj) - z))
    (Cert.LibKeepdims.broadcastTo_a1_ab_apply (k1_pay8 xq xk m) broadcasts_S1024x1_S1024x1024 r jj)

/-- The new denominator: the old one rescaled plus the row's sum of weights. -/
theorem pay11_apply (xq xk : Vec Ideal S1024x64 .bf16) (m mo l : Vec Ideal S1024x1 .f32) (r : Fin 1024) (u : Fin 1) :
    k1_pay11 xq xk m mo l (ix2 r u)
      = k1_pay9 xq xk m mo (ix2 r u) * l (ix2 r u) + ∑ jj : Fin 1024, k1_pay10 xq xk m (ix2 r jj) := by
  unfold k1_pay11
  refine (congrFun (shapeCast_self _ shapeCasts_S1024x1_S1024x1) (ix2 r u)).trans ?_
  refine congrArg (fun z => k1_pay9 xq xk m mo (ix2 r u) * l (ix2 r u) + z) ?_
  refine (Cert.LibKeepdims.shapeCast_a_a1_apply _ shapeCasts_S1024_S1024x1 r u).trans ?_
  exact Cert.LibKeepdims.add_axis1_apply (k1_pay10 xq xk m) 0x00000000#32 reduces_S1024x1024_S1024 (.inl rfl) rfl r

/-- The old numerators rescaled. -/
theorem pay12_apply (xq xk : Vec Ideal S1024x64 .bf16) (m mo : Vec Ideal S1024x1 .f32) (acc : Vec Ideal S1024x64 .f32)
    (r : Fin 1024) (c : Fin 64) :
    k1_pay12 xq xk m mo acc (ix2 r c) = k1_pay9 xq xk m mo (ix2 r (0 : Fin 1)) * acc (ix2 r c) := by
  unfold k1_pay12
  exact congrArg (fun z => z * acc (ix2 r c))
    (Cert.LibKeepdims.broadcastTo_a1_ab_apply (k1_pay9 xq xk m mo) broadcasts_S1024x1_S1024x64 r c)

/-- The weights times the value rows. -/
theorem pay13_apply (xq xk xv : Vec Ideal S1024x64 .bf16) (m : Vec Ideal S1024x1 .f32) (r : Fin 1024) (c : Fin 64) :
    k1_pay13 xq xk xv m (ix2 r c) = ∑ jj : Fin 1024, k1_pay10 xq xk m (ix2 r jj) * xv (ix2 jj c) := by
  unfold k1_pay13
  exact matmulPV_apply (k1_pay10 xq xk m) xv r c

/-- The new numerators: a sum of two matrices, entry by entry. -/
theorem pay1_apply (a b : FVec Ideal S1024x64 .f32) (i : S1024x64.Idx) : k1_pay1 a b i = a i + b i := by
  unfold k1_pay1
  exact congrFun (shapeCast_self (addf a b) shapeCasts_S1024x64_S1024x64) i

/-- The new maxima are stored as they are. -/
theorem pay2_apply (v : FVec Ideal S1024x1 .f32) (i : S1024x1.Idx) : k1_pay2 v i = v i := by
  unfold k1_pay2
  exact congrFun (shapeCast_self v shapeCasts_S1024x1_S1024x1) i

/-- The output block: each numerator over its row's denominator. -/
theorem pay3_apply (a : Vec Ideal S1024x64 .f32) (l : Vec Ideal S1024x1 .f32) (r : Fin 1024) (c : Fin 64) :
    k1_pay3 a l (ix2 r c) = Ideal.div (a (ix2 r c)) (l (ix2 r (0 : Fin 1))) := by
  unfold k1_pay3
  exact congrArg (fun z => Ideal.div (a (ix2 r c)) z)
    (Cert.LibKeepdims.broadcastTo_a1_ab_apply l broadcasts_S1024x1_S1024x64 r c)

end Cert.KernelIdeal.Hand

end
-- ==== Proof.Spec.lean ====
/-
  The two sides of the claim as plain functions of the four argument tables, over `Fin`-indexed coordinates.

  Both compute single-head attention of the rows of `x` against themselves with the score of rows `i`, `j`
  being `(x·Wq)ᵢ · (x·Wk)ⱼ / 64`:

  * `refOut` is the textbook form: the scores of row `i` against all 8192 rows, their maximum `M`, the weights
    `exp(s − M) / Σ exp(s − M)`, and the weighted sum of the rows of `x·Wv`.
  * `kerOut` is the streaming form: the factor `1/64` folded into `Wq`, the 8192 key rows visited in 8 blocks of 1024, a
    running maximum `m`, a running denominator `l` and a running numerator `acc`, the last two rescaled by
    `exp(m_old − m_new)` whenever the maximum moves; the result is `acc / l` after the last block.

  Over the reals the two agree: `exp(m_old − m_new) · exp(s − m_old) = exp(s − m_new)`, so after every block
  `l = Σ exp(s − m)` and `acc = Σ exp(s − m) · v` over the keys seen so far, and a common positive factor cancels in the quotient.
-/
import Mathlib
import Idealize.ShloMosaic.PureOps.Ideal

noncomputable section

open scoped BigOperators

namespace Cert.Attn

open Idealize.ShloMosaic

/-- A table of 8192 rows times a weight matrix, entry `(r, d)`. -/
def proj (x : Fin 8192 → Fin 256 → EReal) (w : Fin 256 → Fin 64 → EReal) (r : Fin 8192) (d : Fin 64) : EReal :=
  ∑ e : Fin 256, x r e * w e d

/-! ## The textbook form -/

/-- The score of query row `i` against key row `j`: the inner product of the projected rows, divided by `c` (the real 64). -/
def refScore (c : EReal) (x : Fin 8192 → Fin 256 → EReal) (wq wk : Fin 256 → Fin 64 → EReal) (i j : Fin 8192) : EReal :=
  Ideal.div (∑ d : Fin 64, proj x wq i d * proj x wk j d) c

/-- The largest score of a row (a fold of `max` from `⊥`, then `max` with `⊥` once more). -/
def refMax (s : Fin 8192 → EReal) : EReal := max ⊥ ((Finset.univ : Finset (Fin 8192)).fold max ⊥ s)

/-- Attention, textbook form, entry `(i, c)`. -/
def refOut (c64 : EReal) (x : Fin 8192 → Fin 256 → EReal) (wq wk wv : Fin 256 → Fin 64 → EReal) (i : Fin 8192) (c : Fin 64) : EReal :=
  ∑ j : Fin 8192,
    Ideal.div (Ideal.exp (refScore c64 x wq wk i j - refMax (refScore c64 x wq wk i)))
        (0 + ∑ j' : Fin 8192, Ideal.exp (refScore c64 x wq wk i j' - refMax (refScore c64 x wq wk i)))
      * proj x wv j c

/-! ## The streaming form -/

/-- Key row number `jj` of block `b`. -/
def keyRow (b : ℕ) (hb : b < 8) (jj : Fin 1024) : Fin 8192 := ⟨b * 1024 + jj.val, by have := jj.isLt; omega⟩

/-- The score with the scale `ci` (the real 1/64) folded into the query weights. -/
def kerScore (ci : EReal) (x : Fin 8192 → Fin 256 → EReal) (wq wk : Fin 256 → Fin 64 → EReal) (i j : Fin 8192) : EReal :=
  ∑ d : Fin 64, (∑ e : Fin 256, x i e * (wq e d * ci)) * proj x wk j d

/-- The running maximum, denominator and numerator of one query row. -/
structure Run where
  m : EReal
  l : EReal
  acc : Fin 64 → EReal

/-- Before the first block: nothing seen. -/
def Run.init : Run := ⟨⊥, 0, fun _ => 0⟩

/-- One block of 1024 keys with scores `s` and value rows `v` folded into the running state. -/
def Run.step (s : Fin 1024 → EReal) (v : Fin 1024 → Fin 64 → EReal) (st : Run) : Run :=
  let m' := max st.m ((Finset.univ : Finset (Fin 1024)).fold max ⊥ s)
  { m := m'
    l := Ideal.exp (st.m - m') * st.l + ∑ jj : Fin 1024, Ideal.exp (s jj - m')
    acc := fun c => Ideal.exp (st.m - m') * st.acc c + ∑ jj : Fin 1024, Ideal.exp (s jj - m') * v jj c }

/-- The state of query row `i` after the first `n` blocks (`n ≤ 8`). -/
def kerRun (ci : EReal) (x : Fin 8192 → Fin 256 → EReal) (wq wk wv : Fin 256 → Fin 64 → EReal) (i : Fin 8192) : (n : ℕ) → n ≤ 8 → Run
  | 0, _ => Run.init
  | n + 1, hn =>
    Run.step (fun jj => kerScore ci x wq wk i (keyRow n (by omega) jj)) (fun jj c => proj x wv (keyRow n (by omega) jj) c)
      (kerRun ci x wq wk wv i n (by omega))

/-- Attention, streaming form, entry `(i, c)`. -/
def kerOut (ci : EReal) (x : Fin 8192 → Fin 256 → EReal) (wq wk wv : Fin 256 → Fin 64 → EReal) (i : Fin 8192) (c : Fin 64) : EReal :=
  Ideal.div ((kerRun ci x wq wk wv i 8 le_rfl).acc c) (kerRun ci x wq wk wv i 8 le_rfl).l

end Cert.Attn

end
-- ==== Proof.KI.StepValue.lean ====
/-
  One grid point's body, row by row, is one step of the streaming recurrence.

  Row `r` of the three carried buffers — the running maximum, the running denominator and the 64 running
  numerators — is a running state; the reset writes the initial state, the body's arithmetic is the step that
  folds in the block's 1024 keys (scores: inner products of query row `r` with the key rows; values: the value
  rows), and the output block holds each numerator over the row's denominator.
-/
import proofs.«176530_j48687749268144_2_alg».proof.Proof.KI.PayValue
import proofs.«176530_j48687749268144_2_alg».proof.Proof.Spec

noncomputable section

open scoped BigOperators

namespace Cert.KernelIdeal.Hand

open Idealize.ShloMosaic Cert.KernelIdeal Cert.KernelIdeal.Gen

/-- row r of the carried buffers as a running state -/
def toRun (s : Scr Ideal) (r : Fin 1024) : Cert.Attn.Run :=
  ⟨s.1 (ValueIdx.ix2 r (0 : Fin 1)), s.2.1 (ValueIdx.ix2 r (0 : Fin 1)), fun c => s.2.2 (ValueIdx.ix2 r c)⟩

/-- Two running states with the same maximum, denominator and numerators are the same. -/
theorem run_ext {a b : Cert.Attn.Run} (hm : a.m = b.m) (hl : a.l = b.l) (hacc : ∀ c, a.acc c = b.acc c) : a = b := by
  cases a
  cases b
  simp only [Cert.Attn.Run.mk.injEq]
  exact ⟨hm, hl, funext hacc⟩

/-- After the reset every row is the initial state. -/
theorem toRun_initS (r : Fin 1024) : toRun (initS (F := Ideal)) r = Cert.Attn.Run.init :=
  run_ext (pay4_apply (ValueIdx.ix2 r (0 : Fin 1))) (pay5_apply (ValueIdx.ix2 r (0 : Fin 1)))
    (fun c => pay6_apply (ValueIdx.ix2 r c))

/-- The body's arithmetic on row `r` is one step of the recurrence over the block's keys. -/
theorem toRun_stepS (xq xk xv : Vec Ideal S1024x64 .bf16) (s : Scr Ideal) (r : Fin 1024) :
    toRun (stepS xq xk xv s) r
      = Cert.Attn.Run.step (fun jj : Fin 1024 => ∑ d : Fin 64, xq (ValueIdx.ix2 r d) * xk (ValueIdx.ix2 jj d))
          (fun jj c => xv (ValueIdx.ix2 jj c)) (toRun s r) := by
  -- the new maximum of the row
  have hm := pay8_apply xq xk s.1 r (0 : Fin 1)
  -- the rescaling factor
  have ha : k1_pay9 xq xk s.1 s.1 (ValueIdx.ix2 r (0 : Fin 1))
      = Ideal.exp (s.1 (ValueIdx.ix2 r (0 : Fin 1)) - max (s.1 (ValueIdx.ix2 r (0 : Fin 1)))
          ((Finset.univ : Finset (Fin 1024)).fold max ⊥
            (fun jj => ∑ d : Fin 64, xq (ValueIdx.ix2 r d) * xk (ValueIdx.ix2 jj d)))) := by
    rw [pay9_apply, hm]
  -- the weights
  have hp : ∀ jj : Fin 1024, k1_pay10 xq xk s.1 (ValueIdx.ix2 r jj)
      = Ideal.exp ((∑ d : Fin 64, xq (ValueIdx.ix2 r d) * xk (ValueIdx.ix2 jj d)) - max (s.1 (ValueIdx.ix2 r (0 : Fin 1)))
          ((Finset.univ : Finset (Fin 1024)).fold max ⊥
            (fun jj => ∑ d : Fin 64, xq (ValueIdx.ix2 r d) * xk (ValueIdx.ix2 jj d)))) := fun jj => by
    rw [pay10_apply, pay7_apply, hm]
  refine run_ext ?_ ?_ fun c => ?_
  · exact (pay2_apply _ _).trans hm
  · refine (pay11_apply xq xk s.1 s.1 s.2.1 r (0 : Fin 1)).trans ?_
    rw [ha]
    exact congrArg _ (Finset.sum_congr rfl fun jj _ => hp jj)
  · refine (pay1_apply _ _ _).trans ?_
    rw [pay12_apply, pay13_apply, ha]
    exact congrArg _ (Finset.sum_congr rfl fun jj _ => congrArg (fun z => z * xv (ValueIdx.ix2 jj c)) (hp jj))

/-- The output block: each running numerator over the row's running denominator. -/
theorem outS_apply (s : Scr Ideal) (r : Fin 1024) (c : Fin 64) :
    outS s (ValueIdx.ix2 r c) = Ideal.div ((toRun s r).acc c) (toRun s r).l :=
  pay3_apply s.2.2 s.2.1 r c

end Cert.KernelIdeal.Hand

end
-- ==== Proof.SpecGen.lean ====
/-
  The streaming form of attention over ANY table of scores and ANY table of value rows: the running state of a query
  row after the first `n` blocks of 1024 keys. The kernel's form is the instance at its own scores and projected values.
-/
import proofs.«176530_j48687749268144_2_alg».proof.Proof.Spec

noncomputable section

open scoped BigOperators

namespace Cert.Attn

open Idealize.ShloMosaic

/-- The running maximum, denominator and numerator of query row `i` after `n` key blocks, for scores `s` and value rows `v`. -/
def genRun (s : Fin 8192 → Fin 8192 → EReal) (v : Fin 8192 → Fin 64 → EReal) (i : Fin 8192) : (n : ℕ) → n ≤ 8 → Run
  | 0, _ => Run.init
  | n + 1, hn =>
    Run.step (fun jj => s i (keyRow n (by omega) jj)) (fun jj c => v (keyRow n (by omega) jj) c)
      (genRun s v i n (by omega))

/-- Attention, streaming form, over any scores and values. -/
def genOut (s : Fin 8192 → Fin 8192 → EReal) (v : Fin 8192 → Fin 64 → EReal) (i : Fin 8192) (c : Fin 64) : EReal :=
  Ideal.div ((genRun s v i 8 le_rfl).acc c) (genRun s v i 8 le_rfl).l

theorem kerRun_eq_genRun (ci : EReal) (x : Fin 8192 → Fin 256 → EReal) (wq wk wv : Fin 256 → Fin 64 → EReal) (i : Fin 8192) :
    ∀ (n : ℕ) (hn : n ≤ 8), kerRun ci x wq wk wv i n hn = genRun (kerScore ci x wq wk) (proj x wv) i n hn
  | 0, _ => rfl
  | n + 1, hn => by
    show Run.step _ _ (kerRun ci x wq wk wv i n (by omega)) = Run.step _ _ (genRun (kerScore ci x wq wk) (proj x wv) i n (by omega))
    rw [kerRun_eq_genRun ci x wq wk wv i n (by omega)]

theorem kerOut_eq_genOut (ci : EReal) (x : Fin 8192 → Fin 256 → EReal) (wq wk wv : Fin 256 → Fin 64 → EReal) (i : Fin 8192) (c : Fin 64) :
    kerOut ci x wq wk wv i c = genOut (kerScore ci x wq wk) (proj x wv) i c := by
  unfold kerOut genOut; rw [kerRun_eq_genRun]

end Cert.Attn

end
-- ==== Proof.KI.Value1.lean ====
/-
  The attention kernel's output array as one function of the query, key and value arrays.

  Grid point `t = 8 qi + ki` of the region reads rows `1024 qi … 1024 qi + 1023` of the query array, rows
  `1024 ki … 1024 ki + 1023` of the key array and of the value array. Row `r` of the three carried buffers after that
  point is the running state of query row `1024 qi + r` after key blocks `0 … ki`, for the scores "query row times key
  row" and the rows of the value array: at `ki = 0` one step from the initial state, at `ki + 1` one step from the
  state after `ki`. At `ki = 7` the block written back holds, at `(r, c)`, numerator `c` over the denominator of that
  state: the streaming form's entry `(1024 qi + r, c)`. The eight blocks written back tile the 8192 rows (row `i` is in
  the block of point `8 (i / 1024) + 7`), so after the region the output array is the streaming form of attention over
  those scores and value rows.
-/
import proofs.«176530_j48687749268144_2_alg».proof.Proof.KI.Region1
import proofs.«176530_j48687749268144_2_alg».proof.Proof.KI.StepValue
import proofs.«176530_j48687749268144_2_alg».proof.Proof.SpecGen
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- the scores the region computes with: inner products of rows of the query array with rows of the key array -/
def scoreOf (qa ka : S8192x64.Idx → EReal) : Fin 8192 → Fin 8192 → EReal :=
  fun i j => ∑ d : Fin 64, qa (ix2 i d) * ka (ix2 j d)

/-- the value rows the region computes with: the rows of the value array -/
def rowsOf (va : S8192x64.Idx → EReal) : Fin 8192 → Fin 64 → EReal := fun j c => va (ix2 j c)

/-- The printed index maps, decided over the 64 grid points: at point `t` the query window and the output window are at
    block `(t / 8, 0)`, the key window and the value window at block `(t % 8, 0)`. -/
theorem idx_facts1 : ∀ t : Fin cfg1.N, win1_0.index t (0 : Fin 2) = t.val / 8
    ∧ win1_0.index t (1 : Fin 2) = 0
    ∧ win1_1.index t (0 : Fin 2) = t.val % 8
    ∧ win1_1.index t (1 : Fin 2) = 0
    ∧ win1_2.index t (0 : Fin 2) = t.val % 8
    ∧ win1_2.index t (1 : Fin 2) = 0
    ∧ win1_3.index t (0 : Fin 2) = t.val / 8
    ∧ win1_3.index t (1 : Fin 2) = 0 :=
  (by decide +kernel : ∀ t : Fin grid1.N, _)

/-- The query window's block at point `t` is rows `1024 (t / 8) … 1024 (t / 8) + 1023` of the query array. -/
theorem iblk1_0_apply (c : Dev nD) (t : Fin cfg1.N) (x : S1024x64.Idx) (k : S8192x64.Idx)
    (hk0 : (k 0).val = 1024 * (t.val / 8) + (x 0).val) (hk1 : (k 1).val = (x 1).val) :
    (iblk1 V c 0 t : Vec Ideal S1024x64 .bf16) x = (V c main_v4 : S8192x64.Idx → EReal) k := by
  obtain ⟨e0, e1, -⟩ := idx_facts1 t
  unfold iblk1
  rw [View.read_apply]
  show V c main_v4 _ = V c main_v4 _
  congr 1
  funext a
  apply Fin.ext
  match a with
  | ⟨0, _⟩ => show win1_0.index t (0 : Fin 2) * 1024 + 1 * (x 0).val = (k 0).val; rw [e0, hk0]; omega
  | ⟨1, _⟩ => show win1_0.index t (1 : Fin 2) * 64 + 1 * (x 1).val = (k 1).val; rw [e1, hk1]; omega

/-- The key window's block at point `t` is rows `1024 (t % 8) … 1024 (t % 8) + 1023` of the key array. -/
theorem iblk1_1_apply (c : Dev nD) (t : Fin cfg1.N) (x : S1024x64.Idx) (k : S8192x64.Idx)
    (hk0 : (k 0).val = 1024 * (t.val % 8) + (x 0).val) (hk1 : (k 1).val = (x 1).val) :
    (iblk1 V c 1 t : Vec Ideal S1024x64 .bf16) x = (V c main_v5 : S8192x64.Idx → EReal) k := by
  obtain ⟨-, -, e0, e1, -⟩ := idx_facts1 t
  unfold iblk1
  rw [View.read_apply]
  show V c main_v5 _ = V c main_v5 _
  congr 1
  funext a
  apply Fin.ext
  match a with
  | ⟨0, _⟩ => show win1_1.index t (0 : Fin 2) * 1024 + 1 * (x 0).val = (k 0).val; rw [e0, hk0]; omega
  | ⟨1, _⟩ => show win1_1.index t (1 : Fin 2) * 64 + 1 * (x 1).val = (k 1).val; rw [e1, hk1]; omega

/-- The value window's block at point `t` is rows `1024 (t % 8) … 1024 (t % 8) + 1023` of the value array. -/
theorem iblk1_2_apply (c : Dev nD) (t : Fin cfg1.N) (x : S1024x64.Idx) (k : S8192x64.Idx)
    (hk0 : (k 0).val = 1024 * (t.val % 8) + (x 0).val) (hk1 : (k 1).val = (x 1).val) :
    (iblk1 V c 2 t : Vec Ideal S1024x64 .bf16) x = (V c main_v6 : S8192x64.Idx → EReal) k := by
  obtain ⟨-, -, -, -, e0, e1, -⟩ := idx_facts1 t
  unfold iblk1
  rw [View.read_apply]
  show V c main_v6 _ = V c main_v6 _
  congr 1
  funext a
  apply Fin.ext
  match a with
  | ⟨0, _⟩ => show win1_2.index t (0 : Fin 2) * 1024 + 1 * (x 0).val = (k 0).val; rw [e0, hk0]; omega
  | ⟨1, _⟩ => show win1_2.index t (1 : Fin 2) * 64 + 1 * (x 1).val = (k 1).val; rw [e1, hk1]; omega

/-- A later point's carried buffers: the step from what the point before left. -/
theorem scrAt_succ (c : Dev nD) (n : ℕ) (hn : n + 1 < cfg1.N) (h0 : ¬(n + 1) % 8 = 0) :
    scrAt V c (n + 1) hn = stepS (iblk1 V c 0 ⟨n + 1, hn⟩) (iblk1 V c 1 ⟨n + 1, hn⟩) (iblk1 V c 2 ⟨n + 1, hn⟩)
      (scrAt V c n (Nat.lt_of_succ_lt hn)) :=
  scrAt_later V c ⟨n + 1, hn⟩ h0

/-- The streaming recurrence, one block further. -/
theorem genRun_succ (s : Fin 8192 → Fin 8192 → EReal) (v : Fin 8192 → Fin 64 → EReal) (i : Fin 8192) (n : ℕ) (hn : n + 1 ≤ 8) :
    Cert.Attn.genRun s v i (n + 1) hn
      = Cert.Attn.Run.step (fun jj => s i (Cert.Attn.keyRow n (by omega) jj)) (fun jj c => v (Cert.Attn.keyRow n (by omega) jj) c)
          (Cert.Attn.genRun s v i n (by omega)) := rfl

/-- One step over the blocks of point `t = 8 qi + ki`, for row `r` of the query block, is one step of the streaming
    recurrence of query row `1024 qi + r` over key block `ki`: the scores are the inner products of that query row with
    key rows `1024 ki + jj`, the values are value rows `1024 ki + jj`. -/
theorem step_blocks (c : Dev nD) (t : Fin cfg1.N) (qi ki : ℕ) (hq : qi < 8) (hk : ki < 8) (ht : t.val = 8 * qi + ki)
    (r : Fin 1024) (i : Fin 8192) (hi : i.val = 1024 * qi + r.val) (xq xk xv : Vec Ideal S1024x64 .bf16)
    (hxq : xq = iblk1 V c 0 t) (hxk : xk = iblk1 V c 1 t) (hxv : xv = iblk1 V c 2 t) (st : Cert.Attn.Run) :
    Cert.Attn.Run.step (fun jj : Fin 1024 => ∑ d : Fin 64, xq (ix2 r d) * xk (ix2 jj d)) (fun jj c' => xv (ix2 jj c')) st
      = Cert.Attn.Run.step (fun jj => scoreOf (V c main_v4) (V c main_v5) i (Cert.Attn.keyRow ki hk jj))
          (fun jj c' => rowsOf (V c main_v6) (Cert.Attn.keyRow ki hk jj) c') st := by
  have hs : (fun jj : Fin 1024 => ∑ d : Fin 64, xq (ix2 r d) * xk (ix2 jj d))
      = fun jj => scoreOf (V c main_v4) (V c main_v5) i (Cert.Attn.keyRow ki hk jj) := by
    funext jj
    unfold scoreOf
    refine Finset.sum_congr rfl fun d _ => ?_
    rw [hxq, hxk, iblk1_0_apply V c t (ix2 r d) (ix2 i d) (by show i.val = 1024 * (t.val / 8) + r.val; omega) rfl,
      iblk1_1_apply V c t (ix2 jj d) (ix2 (Cert.Attn.keyRow ki hk jj) d)
        (by show ki * 1024 + jj.val = 1024 * (t.val % 8) + jj.val; omega) rfl]
  have hv : (fun (jj : Fin 1024) (c' : Fin 64) => xv (ix2 jj c'))
      = fun jj c' => rowsOf (V c main_v6) (Cert.Attn.keyRow ki hk jj) c' := by
    funext jj c'
    unfold rowsOf
    rw [hxv]
    exact iblk1_2_apply V c t (ix2 jj c') (ix2 (Cert.Attn.keyRow ki hk jj) c')
      (by show ki * 1024 + jj.val = 1024 * (t.val % 8) + jj.val; omega) rfl
  rw [hs, hv]

/-- THE INVARIANT. After point `8 qi + ki`, row `r` of the carried buffers is the running state of query row
    `1024 qi + r` after key blocks `0 … ki`. By induction on `ki`. -/
theorem inv1 (c : Dev nD) (qi : ℕ) (hq : qi < 8) (r : Fin 1024) (i : Fin 8192) (hi : i.val = 1024 * qi + r.val) :
    ∀ (ki : ℕ) (hk : ki < 8) (hn : 8 * qi + ki < cfg1.N),
      toRun (scrAt V c (8 * qi + ki) hn) r
        = Cert.Attn.genRun (scoreOf (V c main_v4) (V c main_v5)) (rowsOf (V c main_v6)) i (ki + 1) (by omega)
  | 0, hk, hn => by
    have h := scrAt_first V c ⟨8 * qi + 0, hn⟩ (by show (8 * qi + 0) % 8 = 0; omega)
    rw [show scrAt V c (8 * qi + 0) hn = _ from h, toRun_stepS, toRun_initS, genRun_succ]
    exact step_blocks V c ⟨8 * qi + 0, hn⟩ qi 0 hq hk rfl r i hi _ _ _ rfl rfl rfl _
  | ki + 1, hk, hn => by
    have h := scrAt_succ V c (8 * qi + ki) hn (by omega)
    rw [show scrAt V c (8 * qi + (ki + 1)) hn = _ from h, toRun_stepS,
      inv1 c qi hq r i hi ki (by omega) (Nat.lt_of_succ_lt hn), genRun_succ _ _ _ (ki + 1)]
    exact step_blocks V c ⟨8 * qi + (ki + 1), hn⟩ qi (ki + 1) hq hk rfl r i hi _ _ _ rfl rfl rfl _

/-- The carried buffers at equal positions are the same. -/
theorem scrAt_congr (c : Dev nD) {n n' : ℕ} (h : n = n') (hn : n < cfg1.N) (hn' : n' < cfg1.N) :
    scrAt V c n hn = scrAt V c n' hn' := by
  subst h; rfl

/-- At a last key block, row `r` of the carried buffers is the final running state of query row `1024 (t / 8) + r`. -/
theorem inv1_last (c : Dev nD) (t : Fin cfg1.N) (h7 : t.val % 8 = 7) (r : Fin 1024) (i : Fin 8192)
    (hi : i.val = 1024 * (t.val / 8) + r.val) :
    toRun (scrAt V c t.val t.isLt) r
      = Cert.Attn.genRun (scoreOf (V c main_v4) (V c main_v5)) (rowsOf (V c main_v6)) i 8 le_rfl := by
  have hN : t.val < 64 := lt_of_lt_of_eq t.isLt (show cfg1.N = 64 from N_1)
  have hn : 8 * (t.val / 8) + 7 < cfg1.N := lt_of_lt_of_eq (by omega : 8 * (t.val / 8) + 7 < 64) (show cfg1.N = 64 from N_1).symm
  rw [scrAt_congr V c (by omega : t.val = 8 * (t.val / 8) + 7) t.isLt hn]
  exact inv1 V c (t.val / 8) (by omega) r i hi 7 (by omega) hn

/-- the streaming form of attention over the three arrays, as contents of the output array -/
def G1 (qa ka va : S8192x64.Idx → EReal) : S8192x64.Idx → EReal :=
  fun i => Cert.Attn.genOut (scoreOf qa ka) (rowsOf va) (i 0) (i 1)

/-- WHAT A LAST KEY BLOCK'S POINT WRITES BACK is its block of the streaming form over the arrays as the region finds them. -/
theorem flushed_eq1 (c : Dev nD) (t : Fin cfg1.N) (h7 : t.val % 8 = 7) :
    (dat1 V c).flushed 3 t = ((cfg1.win 3).blk t).view.read (Elt Ideal) (G1 (V c main_v4) (V c main_v5) (V c main_v6)) := by
  show (cfg1.win 3).cut (grid1.coords t) ((dat1 V c).after 3 t) = _
  rw [after1_3]
  obtain ⟨-, -, -, -, -, -, e0, e1⟩ := idx_facts1 t
  funext j
  rw [View.read_apply]
  show outS (scrAt V c t.val t.isLt) ((cfg1.win 3).xinj (grid1.coords t) j)
    = G1 (V c main_v4) (V c main_v5) (V c main_v6) (((cfg1.win 3).blk t).view.emb j)
  have hj : (cfg1.win 3).xinj (grid1.coords t) j = ix2 (⟨(j 0).val, (j 0).isLt⟩ : Fin 1024) (⟨(j 1).val, (j 1).isLt⟩ : Fin 64) := by
    funext a; match a with | ⟨0, _⟩ => rfl | ⟨1, _⟩ => rfl
  refine (congrArg (outS (scrAt V c t.val t.isLt)) hj).trans ?_
  rw [outS_apply]
  unfold G1 Cert.Attn.genOut
  have hr : (((cfg1.win 3).blk t).view.emb j (0 : Fin 2)).val = 1024 * (t.val / 8) + (j 0).val := by
    show win1_3.index t (0 : Fin 2) * 1024 + 1 * (j 0).val = _; rw [e0]; omega
  have hc : ((cfg1.win 3).blk t).view.emb j (1 : Fin 2) = (⟨(j 1).val, (j 1).isLt⟩ : Fin 64) := by
    apply Fin.ext
    show win1_3.index t (1 : Fin 2) * 64 + 1 * (j 1).val = (j 1).val; rw [e1]; omega
  rw [inv1_last V c t h7 ⟨(j 0).val, (j 0).isLt⟩ _ hr, hc]

/-- An index of the output array is in point `t`'s block iff each coordinate is in the block's range on its axis. -/
theorem mem_blk1 (t : Fin cfg1.N) (i : S8192x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole main_v7).slice (win1_3.rect t)).set ↔ _
  rw [View.set_slice_whole, Rect.mem_set_unit]
  exact Iff.rfl

/-- THE COVER: row `i` of the output array is in the block of point `8 (i / 1024) + 7`, which is written back. -/
theorem cover1 (i : S8192x64.Idx) :
    ∃ t : Fin cfg1.N, (cfg1.win 3).flush t = true ∧ i ∈ ((cfg1.win 3).blk t).view.set := by
  have hi0 : (i 0).val < 8192 := (i 0).isLt
  have hi1 : (i 1).val < 64 := (i 1).isLt
  have hn : 8 * ((i 0).val / 1024) + 7 < cfg1.N := lt_of_lt_of_eq (by omega : 8 * ((i 0).val / 1024) + 7 < 64) (show cfg1.N = 64 from N_1).symm
  refine ⟨⟨8 * ((i 0).val / 1024) + 7, hn⟩, (flush1_3 _).mpr (by show (8 * ((i 0).val / 1024) + 7) % 8 = 7; omega), ?_⟩
  obtain ⟨-, -, -, -, -, -, e0, e1⟩ := idx_facts1 ⟨8 * ((i 0).val / 1024) + 7, hn⟩
  have e0' : win1_3.index ⟨8 * ((i 0).val / 1024) + 7, hn⟩ (0 : Fin 2) = (8 * ((i 0).val / 1024) + 7) / 8 := e0
  rw [mem_blk1]
  intro a
  match a with
  | ⟨0, _⟩ => show win1_3.index _ (0 : Fin 2) * 1024 ≤ (i 0).val ∧ (i 0).val < win1_3.index _ (0 : Fin 2) * 1024 + 1024; rw [e0']; omega
  | ⟨1, _⟩ => show win1_3.index _ (1 : Fin 2) * 64 ≤ (i 1).val ∧ (i 1).val < win1_3.index _ (1 : Fin 2) * 64 + 64; rw [e1]; omega

/-- THE OUTPUT ARRAY after the region: the streaming form of attention over the scores "query row times key row" and
    the rows of the value array, for the three arrays as the region finds them. -/
theorem final1 (c : Dev nD) :
    (dat1 V c).arrAt 3 cfg1.N
      = fun i => Cert.Attn.genOut (scoreOf (V c main_v4) (V c main_v5)) (rowsOf (V c main_v6)) (i 0) (i 1) :=
  (dat1 V c).arrAt_eq_of_cover 3 (G1 (V c main_v4) (V c main_v5) (V c main_v6))
    (fun t ht => flushed_eq1 V c t ((flush1_3 t).mp ht)) cover1

end Cert.KernelIdeal.Hand

end
-- ==== Proof.SoftmaxRun.lean ====
/-
  The streaming (online) softmax recurrence over the reals.

  A state holds a running maximum, a running denominator and a running numerator. Feeding it one block of
  real scores and real value rows keeps all three real, and after any positive number of blocks the
  denominator is the sum of exp(score - m) and the numerator the sum of exp(score - m) * value over all
  keys fed so far, where m is the current (real) running maximum. The reason is the one identity
  exp(m_old - m_new) * exp(s - m_old) = exp(s - m_new); for the very first block the old denominator and
  numerator are zero, so the rescaling factor does not matter.

  The file also has the small casting facts used along the way: the cast of a finite real sum into the
  extended reals is the sum of the casts, a running maximum from the bottom element over a nonempty family of
  reals is a real, and a sum over the first a*k naturals splits into a blocks of k.
-/
import proofs.«176530_j48687749268144_2_alg».proof.Proof.Spec

noncomputable section

open scoped BigOperators

namespace Cert.Attn

open Idealize.ShloMosaic

/-! ## Casting finite sums and maxima of reals into the extended reals -/

/-- The cast of a finite sum of reals is the sum of the casts. -/
theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- The cast of the larger of two reals is the larger of the casts. -/
theorem coe_max (a b : ℝ) : ((max a b : ℝ) : EReal) = max (a : EReal) (b : EReal) :=
  EReal.coe_strictMono.monotone.map_max

/-- A running maximum started from the bottom element over a nonempty finite family of reals is a real. -/
theorem fold_max_coe {ι : Type*} (t : Finset ι) (ht : t.Nonempty) (f : ι → ℝ) :
    ∃ M : ℝ, t.fold max ⊥ (fun j => (f j : EReal)) = (M : EReal) := by
  induction ht using Finset.Nonempty.cons_induction with
  | singleton a => exact ⟨f a, by rw [Finset.fold_singleton, max_bot_right]⟩
  | cons a t ha ht ih =>
    obtain ⟨M, hM⟩ := ih
    exact ⟨max (f a) M, by rw [Finset.fold_cons, hM, coe_max]⟩

/-- The exponential of a difference of two reals, taken in the extended reals, is the real exponential. -/
theorem exp_coe_sub (a b : ℝ) :
    Ideal.exp ((a : EReal) - (b : EReal)) = ((Real.exp (a - b) : ℝ) : EReal) := by
  rw [← EReal.coe_sub, Ideal.exp_coe]

/-- A sum over the first a*k naturals, block by block: a blocks of k consecutive terms. -/
theorem sum_range_mul_blocks {M : Type*} [AddCommMonoid M] (a k : ℕ) (g : ℕ → M) :
    ∑ i ∈ Finset.range (a * k), g i = ∑ b ∈ Finset.range a, ∑ jj ∈ Finset.range k, g (b * k + jj) := by
  induction a with
  | zero => simp
  | succ a ih => rw [Nat.succ_mul, Finset.sum_range_add, ih, Finset.sum_range_succ]

/-! ## One step of the recurrence -/

theorem step_m (s : Fin 1024 → EReal) (v : Fin 1024 → Fin 64 → EReal) (st : Run) :
    (Run.step s v st).m = max st.m ((Finset.univ : Finset (Fin 1024)).fold max ⊥ s) := rfl

theorem step_l (s : Fin 1024 → EReal) (v : Fin 1024 → Fin 64 → EReal) (st : Run) :
    (Run.step s v st).l
      = Ideal.exp (st.m - max st.m ((Finset.univ : Finset (Fin 1024)).fold max ⊥ s)) * st.l
        + ∑ jj : Fin 1024, Ideal.exp (s jj - max st.m ((Finset.univ : Finset (Fin 1024)).fold max ⊥ s)) := rfl

theorem step_acc (s : Fin 1024 → EReal) (v : Fin 1024 → Fin 64 → EReal) (st : Run) (c : Fin 64) :
    (Run.step s v st).acc c
      = Ideal.exp (st.m - max st.m ((Finset.univ : Finset (Fin 1024)).fold max ⊥ s)) * st.acc c
        + ∑ jj : Fin 1024,
            Ideal.exp (s jj - max st.m ((Finset.univ : Finset (Fin 1024)).fold max ⊥ s)) * v jj c := rfl

/-- The first block: from the empty state (maximum the bottom element, denominator and numerator zero) a block of
    real scores gives a real maximum m, the denominator Σ exp(s - m) and the numerator Σ exp(s - m) * v.
    The old denominator and numerator are zero, so their rescaled contributions vanish. -/
theorem step_first (s : Fin 1024 → ℝ) (v : Fin 1024 → Fin 64 → ℝ) (st : Run)
    (hm : st.m = ⊥) (hl : st.l = 0) (hacc : ∀ c, st.acc c = 0) :
    ∃ m : ℝ,
      (Run.step (fun jj => (s jj : EReal)) (fun jj c => (v jj c : EReal)) st).m = (m : EReal)
      ∧ (Run.step (fun jj => (s jj : EReal)) (fun jj c => (v jj c : EReal)) st).l
          = ((∑ jj : Fin 1024, Real.exp (s jj - m) : ℝ) : EReal)
      ∧ ∀ c, (Run.step (fun jj => (s jj : EReal)) (fun jj c => (v jj c : EReal)) st).acc c
          = ((∑ jj : Fin 1024, Real.exp (s jj - m) * v jj c : ℝ) : EReal) := by
  obtain ⟨M, hM⟩ := fold_max_coe (Finset.univ : Finset (Fin 1024)) Finset.univ_nonempty s
  refine ⟨M, ?_, ?_, ?_⟩
  · rw [step_m, hm, hM, max_bot_left]
  · rw [step_l, hm, hM, max_bot_left, hl, mul_zero, zero_add, coe_sum]
    exact Finset.sum_congr rfl (fun jj _ => exp_coe_sub _ _)
  · intro c
    rw [step_acc, hm, hM, max_bot_left, hacc, mul_zero, zero_add, coe_sum]
    refine Finset.sum_congr rfl (fun jj _ => ?_)
    rw [exp_coe_sub, EReal.coe_mul]

/-- A later block: from a state with real maximum m, real denominator L and real numerator A, a block of real scores
    gives the real maximum m' = max m (block maximum), the denominator exp(m - m') * L + Σ exp(s - m') and
    the numerator exp(m - m') * A + Σ exp(s - m') * v. -/
theorem step_next (s : Fin 1024 → ℝ) (v : Fin 1024 → Fin 64 → ℝ) (st : Run) (m L : ℝ) (A : Fin 64 → ℝ)
    (hm : st.m = (m : EReal)) (hl : st.l = (L : EReal)) (hacc : ∀ c, st.acc c = (A c : EReal)) :
    ∃ m' : ℝ,
      (Run.step (fun jj => (s jj : EReal)) (fun jj c => (v jj c : EReal)) st).m = (m' : EReal)
      ∧ (Run.step (fun jj => (s jj : EReal)) (fun jj c => (v jj c : EReal)) st).l
          = ((Real.exp (m - m') * L + ∑ jj : Fin 1024, Real.exp (s jj - m') : ℝ) : EReal)
      ∧ ∀ c, (Run.step (fun jj => (s jj : EReal)) (fun jj c => (v jj c : EReal)) st).acc c
          = ((Real.exp (m - m') * A c + ∑ jj : Fin 1024, Real.exp (s jj - m') * v jj c : ℝ) : EReal) := by
  obtain ⟨M, hM⟩ := fold_max_coe (Finset.univ : Finset (Fin 1024)) Finset.univ_nonempty s
  refine ⟨max m M, ?_, ?_, ?_⟩
  · rw [step_m, hm, hM, coe_max]
  · rw [step_l, hm, hM, ← coe_max, hl, exp_coe_sub, EReal.coe_add, EReal.coe_mul, coe_sum]
    exact congrArg _ (Finset.sum_congr rfl (fun jj _ => exp_coe_sub _ _))
  · intro c
    rw [step_acc, hm, hM, ← coe_max, hacc, exp_coe_sub, EReal.coe_add, EReal.coe_mul, coe_sum]
    refine congrArg _ (Finset.sum_congr rfl (fun jj _ => ?_))
    rw [exp_coe_sub, EReal.coe_mul]

/-! ## The recurrence over any number of blocks -/

/-- The state after n blocks, the blocks' scores and value rows given as tables indexed by the block number. -/
def runN (S : ℕ → Fin 1024 → EReal) (V : ℕ → Fin 1024 → Fin 64 → EReal) : ℕ → Run
  | 0 => Run.init
  | n + 1 => Run.step (S n) (V n) (runN S V n)

/-- Rescaling a sum of exponentials from the old maximum to the new one, and adding the new block. -/
theorem rescale_l (S : ℕ → Fin 1024 → ℝ) (n : ℕ) (m m' : ℝ) :
    Real.exp (m - m') * (∑ b ∈ Finset.range n, ∑ jj : Fin 1024, Real.exp (S b jj - m))
        + ∑ jj : Fin 1024, Real.exp (S n jj - m')
      = ∑ b ∈ Finset.range (n + 1), ∑ jj : Fin 1024, Real.exp (S b jj - m') := by
  rw [Finset.sum_range_succ, Finset.mul_sum]
  congr 1
  refine Finset.sum_congr rfl (fun b _ => ?_)
  rw [Finset.mul_sum]
  refine Finset.sum_congr rfl (fun jj _ => ?_)
  rw [← Real.exp_add]
  congr 1
  ring

/-- The same for the numerator, each exponential carrying its value. -/
theorem rescale_acc (S W : ℕ → Fin 1024 → ℝ) (n : ℕ) (m m' : ℝ) :
    Real.exp (m - m') * (∑ b ∈ Finset.range n, ∑ jj : Fin 1024, Real.exp (S b jj - m) * W b jj)
        + ∑ jj : Fin 1024, Real.exp (S n jj - m') * W n jj
      = ∑ b ∈ Finset.range (n + 1), ∑ jj : Fin 1024, Real.exp (S b jj - m') * W b jj := by
  rw [Finset.sum_range_succ, Finset.mul_sum]
  congr 1
  refine Finset.sum_congr rfl (fun b _ => ?_)
  rw [Finset.mul_sum]
  refine Finset.sum_congr rfl (fun jj _ => ?_)
  rw [← mul_assoc, ← Real.exp_add]
  congr 2
  ring

/-- After n ≥ 1 blocks of real scores and real value rows the running maximum is a real m, the denominator is
    Σ exp(s - m) and the numerator Σ exp(s - m) * v, the sums over all keys of the first n blocks. -/
theorem run_real (S : ℕ → Fin 1024 → ℝ) (V : ℕ → Fin 1024 → Fin 64 → ℝ) (n : ℕ) (hn : 1 ≤ n) :
    ∃ m : ℝ,
      (runN (fun b jj => (S b jj : EReal)) (fun b jj c => (V b jj c : EReal)) n).m = (m : EReal)
      ∧ (runN (fun b jj => (S b jj : EReal)) (fun b jj c => (V b jj c : EReal)) n).l
          = ((∑ b ∈ Finset.range n, ∑ jj : Fin 1024, Real.exp (S b jj - m) : ℝ) : EReal)
      ∧ ∀ c, (runN (fun b jj => (S b jj : EReal)) (fun b jj c => (V b jj c : EReal)) n).acc c
          = ((∑ b ∈ Finset.range n, ∑ jj : Fin 1024, Real.exp (S b jj - m) * V b jj c : ℝ) : EReal) := by
  induction n, hn using Nat.le_induction with
  | base =>
    obtain ⟨m, h1, h2, h3⟩ := step_first (S 0) (V 0) Run.init rfl rfl (fun _ => rfl)
    refine ⟨m, h1, ?_, ?_⟩
    · rw [Finset.sum_range_one]; exact h2
    · intro c; rw [Finset.sum_range_one]; exact h3 c
  | succ n hn ih =>
    obtain ⟨m, hm, hl, hacc⟩ := ih
    obtain ⟨m', h1, h2, h3⟩ := step_next (S n) (V n) _ m _ _ hm hl hacc
    refine ⟨m', h1, ?_, ?_⟩
    · rw [← rescale_l S n m m']; exact h2
    · intro c
      rw [← rescale_acc S (fun b jj => V b jj c) n m m']; exact h3 c

end Cert.Attn

end
-- ==== Proof.OnlineSoftmax.lean ====
/-
  The streaming form of attention equals the textbook form on real inputs.

  With real tables every projection and every score is a real. The two scores agree: folding 1/64 into the
  query weights multiplies each projected query entry by 1/64, hence the whole inner product by 1/64, which is
  the division by 64 of the textbook score.

  The 8192 key rows are the 8 blocks of 1024 rows, row b*1024 + jj being row jj of block b, so a sum over all
  rows is the sum over the blocks of the sums within a block. After the 8 blocks the streaming state therefore
  holds a real m, the denominator L = Σ_j exp(s_j - m) and the numerator A = Σ_j exp(s_j - m) * v_j, both sums
  over all 8192 rows. The textbook form uses the maximum M of the scores, a real as well, and divides each weight
  by Z = Σ_j exp(s_j - M) > 0. Since exp(s_j - m) = exp(M - m) * exp(s_j - M), the positive factor exp(M - m) is
  common to A and L and cancels: A / L = Σ_j (exp(s_j - M) / Z) * v_j. (So it does not even matter which real the
  streaming maximum is.)
-/
import proofs.«176530_j48687749268144_2_alg».proof.Proof.SoftmaxRun

noncomputable section

open scoped BigOperators

namespace Cert.Attn

open Idealize.ShloMosaic

/-! ## Projections and scores are reals -/

/-- A real table times a real weight matrix. -/
def projR (x : Fin 8192 → Fin 256 → ℝ) (w : Fin 256 → Fin 64 → ℝ) (r : Fin 8192) (d : Fin 64) : ℝ :=
  ∑ e : Fin 256, x r e * w e d

theorem proj_coe (x : Fin 8192 → Fin 256 → ℝ) (w : Fin 256 → Fin 64 → ℝ) (r : Fin 8192) (d : Fin 64) :
    proj (fun r e => (x r e : EReal)) (fun e d => (w e d : EReal)) r d = ((projR x w r d : ℝ) : EReal) := by
  unfold proj projR
  rw [coe_sum]
  exact Finset.sum_congr rfl (fun e _ => (EReal.coe_mul _ _).symm)

/-- The real score of rows i, j: the inner product of the projected rows over 64. -/
def scoreR (x : Fin 8192 → Fin 256 → ℝ) (wq wk : Fin 256 → Fin 64 → ℝ) (i j : Fin 8192) : ℝ :=
  (∑ d : Fin 64, projR x wq i d * projR x wk j d) / 64

theorem refScore_coe (x : Fin 8192 → Fin 256 → ℝ) (wq wk : Fin 256 → Fin 64 → ℝ) (i j : Fin 8192) :
    refScore ((64 : ℝ) : EReal) (fun r e => (x r e : EReal)) (fun e d => (wq e d : EReal))
        (fun e d => (wk e d : EReal)) i j
      = ((scoreR x wq wk i j : ℝ) : EReal) := by
  unfold refScore scoreR
  have h : (∑ d : Fin 64, proj (fun r e => (x r e : EReal)) (fun e d => (wq e d : EReal)) i d
        * proj (fun r e => (x r e : EReal)) (fun e d => (wk e d : EReal)) j d)
      = ∑ d : Fin 64, ((projR x wq i d * projR x wk j d : ℝ) : EReal) :=
    Finset.sum_congr rfl (fun d _ => by rw [proj_coe, proj_coe, EReal.coe_mul])
  rw [Ideal.div_coe (by norm_num : (64 : ℝ) ≠ 0), h, ← coe_sum, ← EReal.coe_mul,
    div_eq_mul_one_div (∑ d : Fin 64, projR x wq i d * projR x wk j d)]

/-- The projected query entry with 1/64 folded into the weights is the projected entry times 1/64. -/
theorem scaled_proj_coe (x : Fin 8192 → Fin 256 → ℝ) (wq : Fin 256 → Fin 64 → ℝ) (i : Fin 8192) (d : Fin 64) :
    (∑ e : Fin 256, (x i e : EReal) * ((wq e d : EReal) * (((1 / 64 : ℝ)) : EReal)))
      = ((projR x wq i d * (1 / 64) : ℝ) : EReal) := by
  unfold projR
  rw [Finset.sum_mul, coe_sum]
  refine Finset.sum_congr rfl (fun e _ => ?_)
  rw [← EReal.coe_mul, ← EReal.coe_mul, mul_assoc]

theorem kerScore_coe (x : Fin 8192 → Fin 256 → ℝ) (wq wk : Fin 256 → Fin 64 → ℝ) (i j : Fin 8192) :
    kerScore (((1 / 64 : ℝ)) : EReal) (fun r e => (x r e : EReal)) (fun e d => (wq e d : EReal))
        (fun e d => (wk e d : EReal)) i j
      = ((scoreR x wq wk i j : ℝ) : EReal) := by
  show (∑ d : Fin 64, (∑ e : Fin 256, (x i e : EReal) * ((wq e d : EReal) * (((1 / 64 : ℝ)) : EReal)))
        * proj (fun r e => (x r e : EReal)) (fun e d => (wk e d : EReal)) j d)
      = (((∑ d : Fin 64, projR x wq i d * projR x wk j d) / 64 : ℝ) : EReal)
  rw [div_eq_mul_one_div (∑ d : Fin 64, projR x wq i d * projR x wk j d), Finset.sum_mul, coe_sum]
  refine Finset.sum_congr rfl (fun d _ => ?_)
  rw [scaled_proj_coe, proj_coe, ← EReal.coe_mul,
    show projR x wq i d * (1 / 64) * projR x wk j d = projR x wq i d * projR x wk j d * (1 / 64) by ring]

/-! ## The 8192 rows as 8 blocks of 1024 -/

/-- A function of the row, read block by block (zero for block numbers past the last block). -/
def blk (f : Fin 8192 → ℝ) (b : ℕ) (jj : Fin 1024) : ℝ :=
  if hb : b < 8 then f (keyRow b hb jj) else 0

theorem blk_eq (f : Fin 8192 → ℝ) (b : ℕ) (hb : b < 8) (jj : Fin 1024) : blk f b jj = f (keyRow b hb jj) :=
  dif_pos hb

/-- A function of the row extended by zero to all naturals. -/
def extN (f : Fin 8192 → ℝ) (n : ℕ) : ℝ := if h : n < 8192 then f ⟨n, h⟩ else 0

theorem extN_keyRow (f : Fin 8192 → ℝ) (b : ℕ) (hb : b < 8) (jj : Fin 1024) :
    extN f (b * 1024 + jj.val) = f (keyRow b hb jj) := by
  have h : b * 1024 + jj.val < 8192 := by have := jj.isLt; omega
  unfold extN keyRow
  rw [dif_pos h]

/-- A sum over all rows is the sum over the 8 blocks of the sums over the 1024 rows of a block. -/
theorem sum_blocks (f : Fin 8192 → ℝ) (F : ℕ → Fin 1024 → ℝ)
    (hF : ∀ b (hb : b < 8) jj, F b jj = f (keyRow b hb jj)) :
    ∑ b ∈ Finset.range 8, ∑ jj : Fin 1024, F b jj = ∑ j : Fin 8192, f j := by
  have h1 : ∑ j : Fin 8192, f j = ∑ j : Fin 8192, extN f j.val :=
    Finset.sum_congr rfl (fun j _ => by unfold extN; rw [dif_pos j.isLt])
  have h2 : ∑ i ∈ Finset.range 8192, extN f i
      = ∑ b ∈ Finset.range 8, ∑ jj ∈ Finset.range 1024, extN f (b * 1024 + jj) :=
    sum_range_mul_blocks 8 1024 (extN f)
  rw [h1, ← Finset.sum_range (extN f), h2]
  refine Finset.sum_congr rfl (fun b hb => ?_)
  have hb' : b < 8 := Finset.mem_range.mp hb
  rw [Finset.sum_range (fun jj => extN f (b * 1024 + jj))]
  refine Finset.sum_congr rfl (fun jj _ => ?_)
  rw [hF b hb' jj, extN_keyRow f b hb' jj]

/-! ## The streaming run on real inputs -/

/-- The streaming state of the specification is the block recurrence fed with the real scores and value rows. -/
theorem kerRun_eq (x : Fin 8192 → Fin 256 → ℝ) (wq wk wv : Fin 256 → Fin 64 → ℝ) (i : Fin 8192) :
    ∀ (n : ℕ) (hn : n ≤ 8),
      kerRun (((1 / 64 : ℝ)) : EReal) (fun r e => (x r e : EReal)) (fun e d => (wq e d : EReal))
          (fun e d => (wk e d : EReal)) (fun e d => (wv e d : EReal)) i n hn
        = runN (fun b jj => ((blk (scoreR x wq wk i) b jj : ℝ) : EReal))
            (fun b jj c => ((blk (fun j => projR x wv j c) b jj : ℝ) : EReal)) n
  | 0, _ => rfl
  | n + 1, hn => by
    have hn' : n < 8 := by omega
    have h1 : (fun jj : Fin 1024 => kerScore (((1 / 64 : ℝ)) : EReal) (fun r e => (x r e : EReal))
          (fun e d => (wq e d : EReal)) (fun e d => (wk e d : EReal)) i (keyRow n hn' jj))
        = fun jj => ((blk (scoreR x wq wk i) n jj : ℝ) : EReal) :=
      funext (fun jj => by rw [kerScore_coe, blk_eq _ n hn'])
    have h2 : (fun (jj : Fin 1024) (c : Fin 64) =>
          proj (fun r e => (x r e : EReal)) (fun e d => (wv e d : EReal)) (keyRow n hn' jj) c)
        = fun jj c => ((blk (fun j => projR x wv j c) n jj : ℝ) : EReal) :=
      funext (fun jj => funext (fun c => by rw [proj_coe, blk_eq _ n hn']))
    show Run.step
        (fun jj : Fin 1024 => kerScore (((1 / 64 : ℝ)) : EReal) (fun r e => (x r e : EReal))
          (fun e d => (wq e d : EReal)) (fun e d => (wk e d : EReal)) i (keyRow n hn' jj))
        (fun (jj : Fin 1024) (c : Fin 64) =>
          proj (fun r e => (x r e : EReal)) (fun e d => (wv e d : EReal)) (keyRow n hn' jj) c)
        (kerRun (((1 / 64 : ℝ)) : EReal) (fun r e => (x r e : EReal)) (fun e d => (wq e d : EReal))
          (fun e d => (wk e d : EReal)) (fun e d => (wv e d : EReal)) i n (by omega))
      = Run.step (fun jj => ((blk (scoreR x wq wk i) n jj : ℝ) : EReal))
          (fun jj c => ((blk (fun j => projR x wv j c) n jj : ℝ) : EReal))
          (runN (fun b jj => ((blk (scoreR x wq wk i) b jj : ℝ) : EReal))
            (fun b jj c => ((blk (fun j => projR x wv j c) b jj : ℝ) : EReal)) n)
    rw [h1, h2, kerRun_eq x wq wk wv i n (by omega)]

/-! ## The two forms agree -/

/-- The cancellation over the reals: a common positive factor exp(M - m) leaves the quotient of numerator and
    denominator unchanged, and dividing the sum by Z is dividing each term. -/
theorem quotient_real (s p : Fin 8192 → ℝ) (m M : ℝ) :
    (∑ j : Fin 8192, Real.exp (s j - m) * p j) * (1 / ∑ j : Fin 8192, Real.exp (s j - m))
      = ∑ j : Fin 8192, Real.exp (s j - M) * (1 / ∑ j' : Fin 8192, Real.exp (s j' - M)) * p j := by
  have hA : ∑ j : Fin 8192, Real.exp (s j - m) * p j
      = Real.exp (M - m) * ∑ j : Fin 8192, Real.exp (s j - M) * p j := by
    rw [Finset.mul_sum]
    refine Finset.sum_congr rfl (fun j _ => ?_)
    rw [← mul_assoc, ← Real.exp_add, show M - m + (s j - M) = s j - m by ring]
  have hL : ∑ j : Fin 8192, Real.exp (s j - m)
      = Real.exp (M - m) * ∑ j : Fin 8192, Real.exp (s j - M) := by
    rw [Finset.mul_sum]
    refine Finset.sum_congr rfl (fun j _ => ?_)
    rw [← Real.exp_add, show M - m + (s j - M) = s j - m by ring]
  have hZ : 0 < ∑ j : Fin 8192, Real.exp (s j - M) :=
    Finset.sum_pos (fun j _ => Real.exp_pos _) Finset.univ_nonempty
  have hE : 0 < Real.exp (M - m) := Real.exp_pos _
  have hR : ∑ j : Fin 8192, Real.exp (s j - M) * (1 / ∑ j' : Fin 8192, Real.exp (s j' - M)) * p j
      = (∑ j : Fin 8192, Real.exp (s j - M) * p j) * (1 / ∑ j' : Fin 8192, Real.exp (s j' - M)) := by
    rw [Finset.sum_mul]
    refine Finset.sum_congr rfl (fun j _ => ?_)
    ring
  rw [hA, hL, hR]
  field_simp

theorem kerOut_eq_refOut (x : Fin 8192 → Fin 256 → ℝ) (wq wk wv : Fin 256 → Fin 64 → ℝ) (i : Fin 8192) (c : Fin 64) :
    kerOut (((1/64 : ℝ)) : EReal) (fun r e => (x r e : EReal)) (fun e d => (wq e d : EReal)) (fun e d => (wk e d : EReal)) (fun e d => (wv e d : EReal)) i c
      = refOut ((64 : ℝ) : EReal) (fun r e => (x r e : EReal)) (fun e d => (wq e d : EReal)) (fun e d => (wk e d : EReal)) (fun e d => (wv e d : EReal)) i c := by
  -- the streaming side: after the 8 blocks, a real maximum and the two sums over all rows
  obtain ⟨m, -, hl, hacc⟩ := run_real (blk (scoreR x wq wk i)) (fun b jj c => blk (fun j => projR x wv j c) b jj)
    8 (by norm_num)
  have hL : ∑ b ∈ Finset.range 8, ∑ jj : Fin 1024, Real.exp (blk (scoreR x wq wk i) b jj - m)
      = ∑ j : Fin 8192, Real.exp (scoreR x wq wk i j - m) :=
    sum_blocks (fun j => Real.exp (scoreR x wq wk i j - m)) _ (fun b hb jj => by rw [blk_eq _ b hb])
  have hA : ∑ b ∈ Finset.range 8, ∑ jj : Fin 1024,
        Real.exp (blk (scoreR x wq wk i) b jj - m) * blk (fun j => projR x wv j c) b jj
      = ∑ j : Fin 8192, Real.exp (scoreR x wq wk i j - m) * projR x wv j c :=
    sum_blocks (fun j => Real.exp (scoreR x wq wk i j - m) * projR x wv j c) _
      (fun b hb jj => by rw [blk_eq _ b hb, blk_eq _ b hb])
  have hLpos : 0 < ∑ j : Fin 8192, Real.exp (scoreR x wq wk i j - m) :=
    Finset.sum_pos (fun j _ => Real.exp_pos _) Finset.univ_nonempty
  have hK : kerOut (((1/64 : ℝ)) : EReal) (fun r e => (x r e : EReal)) (fun e d => (wq e d : EReal))
        (fun e d => (wk e d : EReal)) (fun e d => (wv e d : EReal)) i c
      = (((∑ j : Fin 8192, Real.exp (scoreR x wq wk i j - m) * projR x wv j c)
          * (1 / ∑ j : Fin 8192, Real.exp (scoreR x wq wk i j - m)) : ℝ) : EReal) := by
    rw [kerOut, kerRun_eq, hacc c, hl, hL, hA, Ideal.div_coe hLpos.ne', ← EReal.coe_mul]
  -- the textbook side: the maximum is a real and the normaliser a positive real
  have hs : refScore ((64 : ℝ) : EReal) (fun r e => (x r e : EReal)) (fun e d => (wq e d : EReal))
        (fun e d => (wk e d : EReal)) i
      = fun j => ((scoreR x wq wk i j : ℝ) : EReal) :=
    funext (fun j => refScore_coe x wq wk i j)
  obtain ⟨M, hM⟩ : ∃ M : ℝ, refMax (fun j => ((scoreR x wq wk i j : ℝ) : EReal)) = (M : EReal) := by
    obtain ⟨M, hM⟩ := fold_max_coe (Finset.univ : Finset (Fin 8192)) Finset.univ_nonempty (scoreR x wq wk i)
    exact ⟨M, by rw [refMax, hM, max_bot_left]⟩
  have hZpos : 0 < ∑ j : Fin 8192, Real.exp (scoreR x wq wk i j - M) :=
    Finset.sum_pos (fun j _ => Real.exp_pos _) Finset.univ_nonempty
  have hden : (0 + ∑ j' : Fin 8192, Ideal.exp (((scoreR x wq wk i j' : ℝ) : EReal) - (M : EReal)))
      = ((∑ j' : Fin 8192, Real.exp (scoreR x wq wk i j' - M) : ℝ) : EReal) := by
    rw [zero_add, coe_sum]
    exact Finset.sum_congr rfl (fun j _ => exp_coe_sub _ _)
  have hR : refOut ((64 : ℝ) : EReal) (fun r e => (x r e : EReal)) (fun e d => (wq e d : EReal))
        (fun e d => (wk e d : EReal)) (fun e d => (wv e d : EReal)) i c
      = ((∑ j : Fin 8192, Real.exp (scoreR x wq wk i j - M)
            * (1 / ∑ j' : Fin 8192, Real.exp (scoreR x wq wk i j' - M)) * projR x wv j c : ℝ) : EReal) := by
    have hterm : ∀ j : Fin 8192,
        Ideal.div (Ideal.exp (((scoreR x wq wk i j : ℝ) : EReal) - (M : EReal)))
            ((∑ j' : Fin 8192, Real.exp (scoreR x wq wk i j' - M) : ℝ) : EReal)
          * proj (fun r e => (x r e : EReal)) (fun e d => (wv e d : EReal)) j c
        = ((Real.exp (scoreR x wq wk i j - M)
            * (1 / ∑ j' : Fin 8192, Real.exp (scoreR x wq wk i j' - M)) * projR x wv j c : ℝ) : EReal) := by
      intro j
      rw [exp_coe_sub, Ideal.div_coe hZpos.ne', proj_coe, ← EReal.coe_mul, ← EReal.coe_mul]
    have hsum := coe_sum (Finset.univ : Finset (Fin 8192)) (fun j : Fin 8192 =>
      Real.exp (scoreR x wq wk i j - M)
        * (1 / ∑ j' : Fin 8192, Real.exp (scoreR x wq wk i j' - M)) * projR x wv j c)
    unfold refOut
    rw [hs, hM, hden, hsum]
    exact Finset.sum_congr rfl (fun j _ => hterm j)
  rw [hK, hR, quotient_real]

end Cert.Attn

end
-- ==== Proof.RefValue.lean ====
/-
  The reference program read at an index, as a plain function of the four argument tables.

  The program projects the rows of `x` three times (`x·Wq`, `x·Wk`, `x·Wv`), forms the 8192 × 8192 table of scores
  `(x·Wq)ᵢ · (x·Wk)ⱼ / 64`, takes each row's maximum `M` (a fold of `max` from −∞, then one more `max` with −∞),
  exponentiates `s − M`, divides by the row's sum (a sum started from `0`), and multiplies the resulting weights
  into `x·Wv`. Every stage's element depends on its operands at indices that are computed from the shapes alone, so
  the value at `(i, c)` unwinds, stage by stage, to the textbook expression `Cert.Attn.refOut`:
  each stage below is read at an index written with its coordinates, and the composed index maps of the generated
  read lemmas are identified with those coordinates.
-/
import Mathlib
import proofs.«176530_j48687749268144_2_alg».proof.Proof.Gen.ReferenceIdeal.Read
import proofs.«176530_j48687749268144_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.ShloMosaic.StableHlo Idealize.ShloMosaic.ValueIdx Cert.Attn

/-! ## The constants -/

/-- The pattern of −∞ denotes the bottom of the extended reals. -/
theorem neginf_eq : Ideal.ofBits .f32 0xFF800000#32 = (⊥ : EReal) := by
  simp [Ideal.ofBits, Ideal.ieee]

/-- The pattern `0x42800000` (sign 0, exponent 133, mantissa 0) denotes `2^6 = 64`. -/
theorem c64_eq : Ideal.ofBits .f32 0x42800000#32 = ((64 : ℝ) : EReal) := by
  simp [Ideal.ofBits, Ideal.ieee, -EReal.coe_mul]; norm_num

/-- The pattern `0x3C800000` (sign 0, exponent 121, mantissa 0) denotes `2^(-6) = 1/64`. -/
theorem c64inv_eq : Ideal.ofBits .f32 0x3C800000#32 = (((1 / 64 : ℝ)) : EReal) := by
  simp [Ideal.ofBits, Ideal.ieee, -EReal.coe_mul]; norm_num

/-! ## The stages, each read at an index given by its coordinates -/

section Stages

variable (x0 : FVec Ideal S8192x256 .f32) (x1 x2 x3 : FVec Ideal S256x64 .f32)

/-- The table `x` as a function of its two coordinates. -/
abbrev X : Fin 8192 → Fin 256 → EReal := fun r e => x0 (ix2 r e)
/-- A weight matrix as a function of its two coordinates. -/
abbrev W (w : FVec Ideal S256x64 .f32) : Fin 256 → Fin 64 → EReal := fun e d => w (ix2 e d)

/-- The scale the scores are divided by, as the program spells it. -/
abbrev c64 : EReal := Ideal.ofBits .f32 0x42800000#32

/-- `x·Wq` at `(i, d)`: the sum over the 256 shared coordinates. -/
theorem v0_read (i : Fin 8192) (d : Fin 64) :
    val_main_v0 (F := Ideal) x0 x1 (ix2 i d) = proj (X x0) (W x1) i d := by
  rw [val_main_v0_apply]
  refine Finset.sum_congr rfl fun k _ => ?_
  have el : lidx_main_v0 (ix2 i d) k = ix2 i k :=
    funext fun a => Fin.ext (by match a with | ⟨0, _⟩ => rfl | ⟨1, _⟩ => rfl)
  have er : ridx_main_v0 (ix2 i d) k = ix2 k d :=
    funext fun a => Fin.ext (by match a with | ⟨0, _⟩ => rfl | ⟨1, _⟩ => rfl)
  rw [el, er]

/-- `x·Wk` at `(j, d)`. -/
theorem v1_read (j : Fin 8192) (d : Fin 64) :
    val_main_v1 (F := Ideal) x0 x2 (ix2 j d) = proj (X x0) (W x2) j d := by
  rw [val_main_v1_apply]
  refine Finset.sum_congr rfl fun k _ => ?_
  have el : lidx_main_v1 (ix2 j d) k = ix2 j k :=
    funext fun a => Fin.ext (by match a with | ⟨0, _⟩ => rfl | ⟨1, _⟩ => rfl)
  have er : ridx_main_v1 (ix2 j d) k = ix2 k d :=
    funext fun a => Fin.ext (by match a with | ⟨0, _⟩ => rfl | ⟨1, _⟩ => rfl)
  rw [el, er]

/-- `x·Wv` at `(j, c)`. -/
theorem v2_read (j : Fin 8192) (c : Fin 64) :
    val_main_v2 (F := Ideal) x0 x3 (ix2 j c) = proj (X x0) (W x3) j c := by
  rw [val_main_v2_apply]
  refine Finset.sum_congr rfl fun k _ => ?_
  have el : lidx_main_v2 (ix2 j c) k = ix2 j k :=
    funext fun a => Fin.ext (by match a with | ⟨0, _⟩ => rfl | ⟨1, _⟩ => rfl)
  have er : ridx_main_v2 (ix2 j c) k = ix2 k c :=
    funext fun a => Fin.ext (by match a with | ⟨0, _⟩ => rfl | ⟨1, _⟩ => rfl)
  rw [el, er]

/-- The transposed keys at `(d, j)` are `x·Wk` at `(j, d)`. -/
theorem v3_read (d : Fin 64) (j : Fin 8192) :
    val_main_v3 (F := Ideal) x0 x2 (ix2 d j) = proj (X x0) (W x2) j d := by
  rw [val_main_v3_apply]
  have e : idx_main_v3 (ix2 d j) = ix2 j d :=
    funext fun a => Fin.ext (by match a with | ⟨0, _⟩ => rfl | ⟨1, _⟩ => rfl)
  rw [e, v1_read]

/-- The inner product of projected query row `i` and projected key row `j`. -/
theorem v4_read (i j : Fin 8192) :
    val_main_v4 (F := Ideal) x0 x1 x2 (ix2 i j) = ∑ d : Fin 64, proj (X x0) (W x1) i d * proj (X x0) (W x2) j d := by
  rw [val_main_v4_apply]
  refine Finset.sum_congr rfl fun k _ => ?_
  have el : lidx_main_v4 (ix2 i j) k = ix2 i k :=
    funext fun a => Fin.ext (by match a with | ⟨0, _⟩ => rfl | ⟨1, _⟩ => rfl)
  have er : ridx_main_v4 (ix2 i j) k = ix2 k j :=
    funext fun a => Fin.ext (by match a with | ⟨0, _⟩ => rfl | ⟨1, _⟩ => rfl)
  rw [el, er, v0_read, v3_read]

/-- The score of rows `i`, `j`: the inner product divided by the scale. -/
theorem v6_read (i j : Fin 8192) :
    val_main_v6 (F := Ideal) x0 x1 x2 (ix2 i j) = refScore c64 (X x0) (W x1) (W x2) i j := by
  rw [val_main_v6_apply, val_main_v5_apply, val_main_cst_apply, v4_read]
  rfl

/-- Row index `i` with coordinate `k` put back on the reduced (second) axis is `(i, k)`. -/
theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- The row reduce with a `max` body from −∞: at row `i` it is the fold of `max` from `⊥` over the row's scores. -/
theorem v7_read (i : Fin 8192) :
    val_main_v7 (F := Ideal) x0 x1 x2 (ix1 i)
      = (Finset.univ : Finset (Fin 8192)).fold max ⊥ (refScore c64 (X x0) (W x1) (W x2) i) := by
  have h : S8192x8192.Reduces [1] S8192 := by decide
  unfold val_main_v7
  refine (Host.reduce_eq_fold_single FloatOps.maximumf _ _ reducesTo_S8192x8192_S8192_d1 h h_S_ (ix1 i)).trans ?_
  have hf : (val_main_v6 (F := Ideal) x0 x1 x2 ∘ h.lift (ix1 i))
      = (refScore c64 (X x0) (W x1) (W x2) i : Fin 8192 → EReal) :=
    funext fun k => by
      show val_main_v6 (F := Ideal) x0 x1 x2 (h.lift (ix1 i) k) = _
      rw [lift_row h i k, v6_read]
      rfl
  rw [val_main_cst_0_apply]
  show Finset.fold max (Ideal.ofBits .f32 0xFF800000#32) (val_main_v6 (F := Ideal) x0 x1 x2 ∘ h.lift (ix1 i))
    (Finset.univ : Finset (Fin 8192)) = _
  rw [neginf_eq, hf]
  rfl

/-- One more `max` with −∞: the row's maximum as the specification spells it. -/
theorem v9_read (i : Fin 8192) :
    val_main_v9 (F := Ideal) x0 x1 x2 (ix1 i) = refMax (refScore c64 (X x0) (W x1) (W x2) i) := by
  rw [val_main_v9_apply, v7_read, val_main_v8_apply, val_main_cst_1_apply]
  show max (Ideal.ofBits .f32 0xFF800000#32) _ = _
  rw [neginf_eq]
  rfl

/-- The row maximum broadcast along the row. -/
theorem v11_read (i j : Fin 8192) :
    val_main_v11 (F := Ideal) x0 x1 x2 (ix2 i j) = refMax (refScore c64 (X x0) (W x1) (W x2) i) := by
  rw [val_main_v11_apply, val_main_v10_apply]
  have e : idx_main_v10 (idx_main_v11 (ix2 i j)) = ix1 i :=
    funext fun a => Fin.ext (by match a with | ⟨0, _⟩ => rfl)
  rw [e, v9_read]

/-- The exponential of a score less its row's maximum. -/
theorem v13_read (i j : Fin 8192) :
    val_main_v13 (F := Ideal) x0 x1 x2 (ix2 i j)
      = Ideal.exp (refScore c64 (X x0) (W x1) (W x2) i j - refMax (refScore c64 (X x0) (W x1) (W x2) i)) := by
  rw [val_main_v13_apply, val_main_v12_apply, v6_read, v11_read]
  rfl

/-- The row's sum of exponentials, started from `0`. -/
theorem v14_read (i : Fin 8192) :
    val_main_v14 (F := Ideal) x0 x1 x2 (ix1 i)
      = 0 + ∑ j' : Fin 8192,
          Ideal.exp (refScore c64 (X x0) (W x1) (W x2) i j' - refMax (refScore c64 (X x0) (W x1) (W x2) i)) := by
  rw [val_main_v14_apply, val_main_cst_2_apply]
  show Ideal.ofBits .f32 0x00000000#32 + _ = _
  rw [Ideal.ofBits_zero_f32]
  refine congrArg (0 + ·) (Finset.sum_congr rfl fun k _ => ?_)
  have e : idx_main_v14 (ix1 i) k = ix2 i k :=
    funext fun a => Fin.ext (by match a with | ⟨0, _⟩ => rfl | ⟨1, _⟩ => rfl)
  rw [e, v13_read]

/-- The row's sum broadcast along the row. -/
theorem v16_read (i j : Fin 8192) :
    val_main_v16 (F := Ideal) x0 x1 x2 (ix2 i j)
      = 0 + ∑ j' : Fin 8192,
          Ideal.exp (refScore c64 (X x0) (W x1) (W x2) i j' - refMax (refScore c64 (X x0) (W x1) (W x2) i)) := by
  rw [val_main_v16_apply, val_main_v15_apply]
  have e : idx_main_v15 (idx_main_v16 (ix2 i j)) = ix1 i :=
    funext fun a => Fin.ext (by match a with | ⟨0, _⟩ => rfl)
  rw [e, v14_read]

/-- The weight of key row `j` for query row `i`. -/
theorem v17_read (i j : Fin 8192) :
    val_main_v17 (F := Ideal) x0 x1 x2 (ix2 i j)
      = Ideal.div (Ideal.exp (refScore c64 (X x0) (W x1) (W x2) i j - refMax (refScore c64 (X x0) (W x1) (W x2) i)))
          (0 + ∑ j' : Fin 8192,
            Ideal.exp (refScore c64 (X x0) (W x1) (W x2) i j' - refMax (refScore c64 (X x0) (W x1) (W x2) i))) := by
  rw [val_main_v17_apply, v13_read, v16_read]
  rfl

end Stages

/-! ## The result -/

/-- The reference's result, index by index, is the textbook expression of the four tables: the weights of row `i`
    summed against column `c` of `x·Wv`. -/
theorem ref_eq (x0 : FVec Ideal S8192x256 .f32) (x1 x2 x3 : FVec Ideal S256x64 .f32) :
    val_main_v18 (F := Ideal) x0 x1 x2 x3
      = fun idx => refOut (Ideal.ofBits .f32 0x42800000#32) (fun r e => x0 (ix2 r e)) (fun e d => x1 (ix2 e d))
          (fun e d => x2 (ix2 e d)) (fun e d => x3 (ix2 e d)) (idx 0) (idx 1) := by
  funext idx
  obtain ⟨i, c, rfl⟩ : ∃ (i : Fin 8192) (c : Fin 64), idx = ix2 i c := ⟨idx 0, idx 1, eq_ix2 idx⟩
  rw [val_main_v18_apply]
  show _ = refOut c64 (X x0) (W x1) (W x2) (W x3) i c
  unfold refOut
  refine Finset.sum_congr rfl fun k _ => ?_
  have el : lidx_main_v18 (ix2 i c) k = ix2 i k :=
    funext fun a => Fin.ext (by match a with | ⟨0, _⟩ => rfl | ⟨1, _⟩ => rfl)
  have er : ridx_main_v18 (ix2 i c) k = ix2 k c :=
    funext fun a => Fin.ext (by match a with | ⟨0, _⟩ => rfl | ⟨1, _⟩ => rfl)
  rw [el, er, v17_read, v2_read]

end Cert.ReferenceIdeal.RefValue

end
-- ==== Proof.KI.Assemble.lean ====
/-
  The kernel program's result is the streaming form of attention of the four argument arrays.

  The projection region leaves rows of `x` times the fused weights; its three column bands are therefore `x·(Wq/64)`,
  `x·Wk` and `x·Wv`; the attention region leaves the streaming form over the scores of the first two and the rows of the
  third — which is `kerOut` of the specification, and, the inputs being real numbers, the textbook form `refOut`.
-/
import proofs.«176530_j48687749268144_2_alg».proof.Proof.KI.Bands
import proofs.«176530_j48687749268144_2_alg».proof.Proof.KI.Value0
import proofs.«176530_j48687749268144_2_alg».proof.Proof.KI.Value1
import proofs.«176530_j48687749268144_2_alg».proof.Proof.OnlineSoftmax
import proofs.«176530_j48687749268144_2_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The scale folded into the query weights: the word of `1/64`. -/
abbrev ci : EReal := Ideal.ofBits .f32 0x3C800000#32

/-- The four argument arrays as tables over coordinates. -/
abbrev X (c : Dev nD) : Fin 8192 → Fin 256 → EReal := fun r e => (m ((c : Thread nD τ).loc main_arg0) : S8192x256.Idx → EReal) (ix2 r e)
abbrev Wq (c : Dev nD) : Fin 256 → Fin 64 → EReal := fun e d => (m ((c : Thread nD τ).loc main_arg1) : S256x64.Idx → EReal) (ix2 e d)
abbrev Wk (c : Dev nD) : Fin 256 → Fin 64 → EReal := fun e d => (m ((c : Thread nD τ).loc main_arg2) : S256x64.Idx → EReal) (ix2 e d)
abbrev Wv (c : Dev nD) : Fin 256 → Fin 64 → EReal := fun e d => (m ((c : Thread nD τ).loc main_arg3) : S256x64.Idx → EReal) (ix2 e d)

/-- What the projection region leaves: rows of `x` times the fused weights. -/
theorem V2_v3 (c : Dev nD) : (V2 m ρ c main_v3 : S8192x192.Idx → EReal)
    = G0 (m ((c : Thread nD τ).loc main_arg0)) (fusedW (m ((c : Thread nD τ).loc main_arg1)) (m ((c : Thread nD τ).loc main_arg2)) (m ((c : Thread nD τ).loc main_arg3))) := by
  have h := (W2_arr m ρ c 2).trans (final0 (V1 m ρ) c)
  rw [V1_arg0, V1_v2] at h
  exact h

/-- The three bands, entry by entry. -/
theorem q_apply (c : Dev nD) (i : Fin 8192) (d : Fin 64) :
    (V3 m ρ c main_v4 : S8192x64.Idx → EReal) (ix2 i d) = ∑ e : Fin 256, X m c i e * (Wq m c e d * ci) := by
  rw [V3_v4, band0_apply, V2_v3]
  show ∑ e : Fin 256, _ * fusedW _ _ _ (ix2 e _) = _
  exact Finset.sum_congr rfl fun e _ => by rw [fusedW_q]
theorem k_apply (c : Dev nD) (i : Fin 8192) (d : Fin 64) :
    (V3 m ρ c main_v5 : S8192x64.Idx → EReal) (ix2 i d) = Cert.Attn.proj (X m c) (Wk m c) i d := by
  rw [V3_v5, band64_apply, V2_v3]
  show ∑ e : Fin 256, _ * fusedW _ _ _ (ix2 e _) = _
  exact Finset.sum_congr rfl fun e _ => by rw [fusedW_k]
theorem v_apply (c : Dev nD) (i : Fin 8192) (d : Fin 64) :
    (V3 m ρ c main_v6 : S8192x64.Idx → EReal) (ix2 i d) = Cert.Attn.proj (X m c) (Wv m c) i d := by
  rw [V3_v6, band128_apply, V2_v3]
  show ∑ e : Fin 256, _ * fusedW _ _ _ (ix2 e _) = _
  exact Finset.sum_congr rfl fun e _ => by rw [fusedW_v]

/-- So the attention region's scores and value rows are the specification's. -/
theorem scoreOf_eq (c : Dev nD) :
    scoreOf (V3 m ρ c main_v4) (V3 m ρ c main_v5) = Cert.Attn.kerScore ci (X m c) (Wq m c) (Wk m c) := by
  funext i j
  unfold scoreOf Cert.Attn.kerScore
  exact Finset.sum_congr rfl fun d _ => by rw [q_apply, k_apply]
theorem rowsOf_eq (c : Dev nD) : rowsOf (V3 m ρ c main_v6) = Cert.Attn.proj (X m c) (Wv m c) := by
  funext j d
  unfold rowsOf
  exact v_apply m ρ c j d

/-- The program's result, for real inputs, is the textbook attention of the argument arrays. -/
theorem kernel_value (c : Dev nD) (xr : Fin 8192 → Fin 256 → ℝ) (wqr wkr wvr : Fin 256 → Fin 64 → ℝ)
    (hx : ∀ r e, X m c r e = ((xr r e : ℝ) : EReal)) (hq : ∀ e d, Wq m c e d = ((wqr e d : ℝ) : EReal))
    (hk : ∀ e d, Wk m c e d = ((wkr e d : ℝ) : EReal)) (hv : ∀ e d, Wv m c e d = ((wvr e d : ℝ) : EReal)) :
    (dat1 (V3 m ρ) c).arrAt 3 cfg1.N
      = fun idx => Cert.Attn.refOut (Ideal.ofBits .f32 0x42800000#32) (X m c) (Wq m c) (Wk m c) (Wv m c) (idx 0) (idx 1) := by
  rw [final1 (V3 m ρ) c, scoreOf_eq, rowsOf_eq]
  have eX : X m c = fun r e => ((xr r e : ℝ) : EReal) := funext fun r => funext fun e => hx r e
  have eq : Wq m c = fun e d => ((wqr e d : ℝ) : EReal) := funext fun e => funext fun d => hq e d
  have ek : Wk m c = fun e d => ((wkr e d : ℝ) : EReal) := funext fun e => funext fun d => hk e d
  have ev : Wv m c = fun e d => ((wvr e d : ℝ) : EReal) := funext fun e => funext fun d => hv e d
  have key : ∀ (i : Fin 8192) (d : Fin 64),
      Cert.Attn.genOut (Cert.Attn.kerScore ci (X m c) (Wq m c) (Wk m c)) (Cert.Attn.proj (X m c) (Wv m c)) i d
        = Cert.Attn.refOut (Ideal.ofBits .f32 0x42800000#32) (X m c) (Wq m c) (Wk m c) (Wv m c) i d := by
    intro i d
    rw [← Cert.Attn.kerOut_eq_genOut, eX, eq, ek, ev, show ci = (((1 / 64 : ℝ)) : EReal) from Cert.ReferenceIdeal.RefValue.c64inv_eq, Cert.ReferenceIdeal.RefValue.c64_eq]
    exact Cert.Attn.kerOut_eq_refOut xr wqr wkr wvr i d
  funext idx
  exact key (idx 0) (idx 1)

end Cert.KernelIdeal.Hand

end
-- ==== Proof.Finite.lean ====
/-
  The precondition "every input is finite", read back: if the precondition evaluates to 1 on extended-real
  inputs, then every entry of each of the four inputs is (the embedding of) a real number.
-/
import proofs.«176530_j48687749268144_2_alg».proof.Pre_finite_inputs
import proofs.«176530_j48687749268144_2_alg».proof.Proof.Gen.Pre_finite_inputs
import Idealize.ShloMosaic.Lib.ReduceAll
import Idealize.ShloMosaic.Lib.ValueIdx
import Idealize.ShloMosaic.PureOps.Ideal.Laws

namespace Cert.Proof.Finite

open Idealize.ShloMosaic Idealize.ShloMosaic.ValueIdx Cert.Pre_finite_inputs

/-- The scalar shape has exactly one index. -/
instance subsingleton_scalar_idx : Subsingleton S_.Idx := ⟨fun a b => funext fun d => d.elim0⟩

/-- The f32 word `0x7F800000` (sign 0, exponent all ones, significand 0) denotes `+∞`. -/
theorem ofBits_pos_inf : Ideal.ofBits .f32 0x7F800000#32 = (⊤ : EReal) := by
  simp [Ideal.ofBits, Ideal.ieee]

/-- An extended real `a` with `|a| = max a (-a) < +∞` is a real: `a = ⊥` gives `max ⊥ ⊤ = ⊤` and `a = ⊤` gives `⊤`. -/
theorem exists_real_of_abs_lt_top (a : EReal) (h : max a (-a) < ⊤) : ∃ r : ℝ, a = (r : EReal) := by
  induction a using EReal.rec with
  | bot => simp at h
  | coe r => exact ⟨r, rfl⟩
  | top => simp at h

/-- A one-bit word made from a Boolean is 1 exactly when the Boolean is true. -/
theorem bitVec_ofBool_eq_one (b : Bool) : BitVec.ofBool b = 1#1 ↔ b = true := by cases b <;> decide

/-- One element of the test `|x| < +∞`: if the comparison word at index `i` is 1, then `x i` is a real. -/
theorem exists_real_of_cmp {s : Shape} (bc : S_.BroadcastsInDim s (![] : Fin 0 → Fin s.rank)) (x : FVec Ideal s .f32) (i : s.Idx)
    (h : cmpf .olt (Host.absf x) (broadcastInDim s ![] bc (constant S_ .f32 0x7F800000#32)) i = 1#1) :
    ∃ r : ℝ, x i = (r : EReal) := by
  have h1 : Ideal.cmp .olt (max (x i) (-(x i))) (Ideal.ofBits .f32 0x7F800000#32) = 1#1 := h
  rw [ofBits_pos_inf] at h1
  refine exists_real_of_abs_lt_top (x i) ?_
  have h2 : BitVec.ofBool (decide (max (x i) (-(x i)) < (⊤ : EReal))) = 1#1 := h1
  exact of_decide_eq_true ((bitVec_ofBool_eq_one _).1 h2)

/-- One conjunct of the precondition, read back: if the reduction by `and`, over both axes of a rank-2 array, of the
    element tests `|x| < +∞` is 1 at the one scalar index, then the entry at every pair of coordinates is a real. -/
theorem exists_real_of_all {n0 n1 : Nat} (bc : S_.BroadcastsInDim (⟨2, ![n0, n1]⟩ : Shape) (![] : Fin 0 → Fin 2))
    (hr : (⟨2, ![n0, n1]⟩ : Shape).ReducesTo [0, 1] S_) (hu : 0 < S_.numel) (init : IVec S_ 1)
    (x : FVec Ideal (⟨2, ![n0, n1]⟩ : Shape) .f32)
    (h : Host.reduce IntOp.andi
          (cmpf .olt (Host.absf x) (broadcastInDim (⟨2, ![n0, n1]⟩ : Shape) ![] bc (constant S_ .f32 0x7F800000#32)))
          init hr hu ix0 = 1#1) :
    ∃ xr : Fin n0 → Fin n1 → ℝ, ∀ a b, x (ix2 a b) = ((xr a b : ℝ) : EReal) := by
  have hall : ∀ a b, ∃ r : ℝ, x (ix2 a b) = (r : EReal) := fun a b =>
    exists_real_of_cmp bc x (ix2 a b) (Host.reduce_andi_all _ init hr hu ix0 h (ix2 a b))
  choose xr hxr using hall
  exact ⟨xr, hxr⟩

/-- The precondition is the conjunction of four such reductions, one per input: if it evaluates to 1 on extended-real
    inputs, every entry of each of the four inputs is a real number. -/
theorem real_of_pre [Cert.Pre_finite_inputs.Facts] (x : FVec Ideal Cert.Pre_finite_inputs.S8192x256 .f32)
    (w1 w2 w3 : FVec Ideal Cert.Pre_finite_inputs.S256x64 .f32)
    (h : Cert.Pre_finite_inputs.fn (F := Ideal) x w1 w2 w3 = fun _ => 1#1) :
    (∃ xr : Fin 8192 → Fin 256 → ℝ, ∀ r e, x (ValueIdx.ix2 r e) = ((xr r e : ℝ) : EReal))
    ∧ (∃ wr : Fin 256 → Fin 64 → ℝ, ∀ e d, w1 (ValueIdx.ix2 e d) = ((wr e d : ℝ) : EReal))
    ∧ (∃ wr : Fin 256 → Fin 64 → ℝ, ∀ e d, w2 (ValueIdx.ix2 e d) = ((wr e d : ℝ) : EReal))
    ∧ (∃ wr : Fin 256 → Fin 64 → ℝ, ∀ e d, w3 (ValueIdx.ix2 e d) = ((wr e d : ℝ) : EReal)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨exists_real_of_all _ _ _ _ x h1, exists_real_of_all _ _ _ _ w1 h2,
    exists_real_of_all _ _ _ _ w2 h3, exists_real_of_all _ _ _ _ w3 h4⟩

end Cert.Proof.Finite
-- ==== Proof.lean ====
/-
  The certificate of a streaming ("online softmax") attention kernel against textbook softmax attention.

  Both programs take `x : [8192, 256]` and three weight matrices `[256, 64]` and compute single-head attention of the rows
  of `x` against themselves, the score of rows `i`, `j` being `(x·Wq)ᵢ · (x·Wk)ⱼ / 64`. The reference forms all
  `8192 × 8192` scores, subtracts each row's maximum, exponentiates, normalises by the row sum and multiplies with
  `x·Wv`. The kernel folds `1/64` into `Wq`, projects once with the three weight matrices fused, and then streams over the
  keys in blocks of 1024 keeping, per query row, a running maximum, a running sum of exponentials and a running weighted
  sum of value rows, rescaled by `exp(m_old − m_new)` whenever the maximum moves, and divides at the end.

  * The three frames: both kernel programs run — the host operations, the projection region, the column slices, the
    attention region — from any memory, leaving their arguments alone (the same proof at the word level and at the
    extended reals); the reference is a straight line of host operations.
  * `preserves`: the idealization rewrote nothing.
  * `algebraic`: over the extended reals with every input a real number, `exp(m_old − m_new)·exp(s − m_old) = exp(s − m_new)`
    makes the running sums the sums over all keys seen of `exp(s − m)`, and the common factor cancels in the final quotient,
    so the streaming result is the softmax-weighted sum; `x·(Wq·(1/64))·(x·Wk)ᵀ = (x·Wq)(x·Wk)ᵀ / 64` identifies the scores.
-/
import proofs.«176530_j48687749268144_2_alg».proof.Defs
import proofs.«176530_j48687749268144_2_alg».proof.Proof.Gen.Kernel
import proofs.«176530_j48687749268144_2_alg».proof.Proof.Gen.KernelIdeal
import proofs.«176530_j48687749268144_2_alg».proof.Proof.Gen.ReferenceIdeal
import proofs.«176530_j48687749268144_2_alg».proof.Proof.Gen.Pre_finite_inputs
import proofs.«176530_j48687749268144_2_alg».proof.Proof.Gen.ReferenceIdeal.Read
import proofs.«176530_j48687749268144_2_alg».proof.Proof.K.Run
import proofs.«176530_j48687749268144_2_alg».proof.Proof.KI.Assemble
import proofs.«176530_j48687749268144_2_alg».proof.Proof.Finite

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the textbook attention of the (agreeing, real-valued) argument arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => (Cert.KernelIdeal.Hand.dat1 (Cert.KernelIdeal.Hand.V3 m ρ) c).arrAt 3 Cert.KernelIdeal.cfg1.N, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  obtain ⟨⟨xr, hx⟩, ⟨wqr, hq⟩, ⟨wkr, hk⟩, ⟨wvr, hv⟩⟩ := Cert.Proof.Finite.real_of_pre _ _ _ _ (hpre c)
  exact ((Cert.ReferenceIdeal.Read.val_main_v18_eq _ _ _ _).trans (Cert.ReferenceIdeal.RefValue.ref_eq _ _ _ _)).trans
    (Cert.KernelIdeal.Hand.kernel_value m ρ c xr wqr wkr wvr hx hq hk hv).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
